-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S250000x2 : Shape := ⟨2, ![250000, 2]⟩
abbrev S2x4000000 : Shape := ⟨2, ![2, 4000000]⟩
abbrev S2x16 : Shape := ⟨2, ![2, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S_ : Shape := ⟨0, ![]⟩

class Facts : Prop where
  bcast_S_S250000x2 : S_.BroadcastsInDim S250000x2 (![] : Fin 0 → Fin S250000x2.rank)
  reducesTo_S250000x2_S_d0_1 : S250000x2.ReducesTo [0, 1] S_
  h_S_ : 0 < S_.numel
  bcast_S_S2x16 : S_.BroadcastsInDim S2x16 (![] : Fin 0 → Fin S2x16.rank)
  reducesTo_S2x16_S_d0_1 : S2x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S16 .f32) (main_arg6 : FVec F S16x1 .f32) (main_arg7 : FVec F S1 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x1 .f32 := Host.absf main_arg6
  let main_cst_8 : FVec F S_ .f32 := constant S_ .f32 0x7F800000#32
  let main_v25 : FVec F S16x1 .f32 := broadcastInDim S16x1 ![] bcast_S_S16x1 main_cst_8
  let main_v26 : IVec S16x1 1 := cmpf .olt main_v24 main_v25
  let main_c_9 : IVec S_ 1 := constantI S_ 1 1#1
  let main_v27 : IVec S_ 1 := (fun x v => Host.reduce IntOp.andi x v reducesTo_S16x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S250000x2 .f32) (main_arg1 : IVec S2x4000000 32) (main_arg2 : FVec F S2x16 .f32) (main_arg3 : FVec F S16 .f32) (main_arg4 : FVec F S16x16 .f32) (main_arg5 : FVec F S16 .f32) (main_arg6 : FVec F S16x1 .f32) (main_arg7 : FVec F S1 .f32) : IVec S_ 1 :=
  let main_v0 : FVec F S250000x2 .f32 := Host.absf main_arg0
  let main_cst : FVec F S_ .f32 := constant S_ .f32 0x7F800000#32
  let main_v1 : FVec F S250000x2 .f32 := broadcastInDim S250000x2 ![] bcast_S_S250000x2 main_cst
  let main_v2 : IVec S250000x2 1 := cmpf .olt main_v0 main_v1
  let main_c : IVec S_ 1 := constantI S_ 1 1#1
  let main_v3 : IVec S_ 1 := (fun x v => Host.reduce IntOp.andi x v reducesTo_S250000x2_S_d0_1 h_S_) main_v2 main_c
  let main_v4 : FVec F S2x16 .f32 := Host.absf main_arg2
  let main_cst_0 : FVec F S_ .f32 := constant S_ .f32 0x7F800000#32
  let main_v5 : FVec F S2x16 .f32 := broadcastInDim S2x16 ![] bcast_S_S2x16 main_cst_0
  let main_v6 : IVec S2x16 1 := cmpf .olt main_v4 main_v5
  let main_c_1 : IVec S_ 1 := constantI S_ 1 1#1
  let main_v7 : IVec S_ 1 := (fun x v => Host.reduce IntOp.andi x v reducesTo_S2x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_arg6 main_arg7 main_v13 main_v16
-- ==== Kernel.lean ====
abbrev S250000x2 : Shape := ⟨2, ![250000, 2]⟩
abbrev S2x4000000 : Shape := ⟨2, ![2, 4000000]⟩
abbrev S2x16 : Shape := ⟨2, ![2, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S1x4000000 : Shape := ⟨2, ![1, 4000000]⟩
abbrev S4000000 : Shape := ⟨1, ![4000000]⟩
abbrev S_ : Shape := ⟨0, ![]⟩
abbrev S250000 : Shape := ⟨1, ![250000]⟩
abbrev S4000000x1 : Shape := ⟨2, ![4000000, 1]⟩
abbrev S250000x16 : Shape := ⟨2, ![250000, 16]⟩
abbrev S5000x2 : Shape := ⟨2, ![5000, 2]⟩
abbrev S5000x16 : Shape := ⟨2, ![5000, 16]⟩
abbrev S4000000x16 : Shape := ⟨2, ![4000000, 16]⟩
abbrev S250000x1 : Shape := ⟨2, ![250000, 1]⟩
abbrev S1x16 : Shape := ⟨2, ![1, 16]⟩
abbrev S5000x1 : Shape := ⟨2, ![5000, 1]⟩
abbrev S1x1 : Shape := ⟨2, ![1, 1]⟩

abbrev nBuf : Space → Nat
  | .hbm => 141
  | .vmem => 42
  | .smem => 0
  | _ => 0

abbrev hbmTy0_0 (i : Nat) : BufTy := match i % 128 with
  | 0 => ⟨S250000x2, .f32⟩
  | 1 => ⟨S2x4000000, .i32⟩
  | 2 => ⟨S2x16, .f32⟩
  | 3 => ⟨S16, .f32⟩
  | 4 => ⟨S16x16, .f32⟩
  | 5 => ⟨S16, .f32⟩
  | 6 => ⟨S16x1, .f32⟩
  | 7 => ⟨S1, .f32⟩
  | 8 => ⟨S1x4000000, .i32⟩
  | 9 => ⟨S4000000, .i32⟩
  | 10 => ⟨S1x4000000, .i32⟩
  | 11 => ⟨S4000000, .i32⟩
  | 12 => ⟨S_, .f32⟩
  | 13 => ⟨S4000000, .f32⟩
  | 14 => ⟨S_, .f32⟩
  | 15 => ⟨S250000, .f32⟩
  | 16 => ⟨S4000000x1, .i32⟩
  | 17 => ⟨S250000, .f32⟩
  | 18 => ⟨S_, .f32⟩
  | 19 => ⟨S250000, .f32⟩
  | 20 => ⟨S250000, .f32⟩
  | 21 => ⟨S_, .f32⟩
  | 22 => ⟨S250000, .f32⟩
  | 23 => ⟨S250000, .f32⟩
  | 24 => ⟨S250000, .f32⟩
  | 25 => ⟨S250000x16, .f32⟩
  | 26 => ⟨S_, .i32⟩
  | 27 => ⟨S4000000, .i32⟩
  | 28 => ⟨S4000000, .i1⟩
  | 29 => ⟨S_, .i32⟩
  | 30 => ⟨S4000000, .i32⟩
  | 31 => ⟨S4000000, .i32⟩
  | 32 => ⟨S4000000, .i32⟩
  | 33 => ⟨S4000000x1, .i32⟩
  | 34 => ⟨S4000000, .f32⟩
  | 35 => ⟨S_, .i32⟩
  | 36 => ⟨S4000000, .i32⟩
  | 37 => ⟨S4000000, .i1⟩
  | 38 => ⟨S_, .i32⟩
  | 39 => ⟨S4000000, .i32⟩
  | 40 => ⟨S4000000, .i32⟩
  | 41 => ⟨S4000000, .i32⟩
  | 42 => ⟨S4000000x1, .i32⟩
  | 43 => ⟨S4000000, .f32⟩
  | 44 => ⟨S4000000, .f32⟩
  | 45 => ⟨S4000000x1, .f32⟩
  | 46 => ⟨S_, .i32⟩
  | 47 => ⟨S4000000, .i32⟩
  | 48 => ⟨S4000000, .i1⟩
  | 49 => ⟨S_, .i32⟩
  | 50 => ⟨S4000000, .i32⟩
  | 51 => ⟨S4000000, .i32⟩
  | 52 => ⟨S4000000, .i32⟩
  | 53 => ⟨S4000000x1, .i32⟩
  | 54 => ⟨S4000000x16, .f32⟩
  | 55 => ⟨S4000000x16, .f32⟩
  | 56 => ⟨S4000000x16, .f32⟩
  | 57 => ⟨S_, .f32⟩
  | 58 => ⟨S250000x16, .f32⟩
  | 59 => ⟨S4000000x1, .i32⟩
  | 60 => ⟨S250000x16, .f32⟩
  | 61 => ⟨S250000x1, .f32⟩
  | 62 => ⟨S1x16, .f32⟩
  | 63 => ⟨S250000x16, .f32⟩
  | 64 => ⟨S250000x16, .f32⟩
  | 65 => ⟨S_, .i32⟩
  | 66 => ⟨S4000000, .i32⟩
  | 67 => ⟨S4000000, .i1⟩
  | 68 => ⟨S_, .i32⟩
  | 69 => ⟨S4000000, .i32⟩
  | 70 => ⟨S4000000, .i32⟩
  | 71 => ⟨S4000000, .i32⟩
  | 72 => ⟨S4000000x1, .i32⟩
  | 73 => ⟨S4000000, .f32⟩
  | 74 => ⟨S_, .i32⟩
  | 75 => ⟨S4000000, .i32⟩
  | 76 => ⟨S4000000, .i1⟩
  | 77 => ⟨S_, .i32⟩
  | 78 => ⟨S4000000, .i32⟩
  | 79 => ⟨S4000000, .i32⟩
  | 80 => ⟨S4000000, .i32⟩
  | 81 => ⟨S4000000x1, .i32⟩
  | 82 => ⟨S4000000, .f32⟩
  | 83 => ⟨S4000000, .f32⟩
  | 84 => ⟨S4000000x1, .f32⟩
  | 85 => ⟨S_, .i32⟩
  | 86 => ⟨S4000000, .i32⟩
  | 87 => ⟨S4000000, .i1⟩
  | 88 => ⟨S_, .i32⟩
  | 89 => ⟨S4000000, .i32⟩
  | 90 => ⟨S4000000, .i32⟩
  | 91 => ⟨S4000000, .i32⟩
  | 92 => ⟨S4000000x1, .i32⟩
  | 93 => ⟨S4000000x16, .f32⟩
  | 94 => ⟨S4000000x16, .f32⟩
  | 95 => ⟨S4000000x16, .f32⟩
  | 96 => ⟨S_, .f32⟩
  | 97 => ⟨S250000x16, .f32⟩
  | 98 => ⟨S4000000x1, .i32⟩
  | 99 => ⟨S250000x16, .f32⟩
  | 100 => ⟨S250000x1, .f32⟩
  | 101 => ⟨S1x16, .f32⟩
  | 102 => ⟨S250000x16, .f32⟩
  | 103 => ⟨S250000x1, .f32⟩
  | 104 => ⟨S_, .i32⟩
  | 105 => ⟨S4000000, .i32⟩
  | 106 => ⟨S4000000, .i1⟩
  | 107 => ⟨S_, .i32⟩
  | 108 => ⟨S4000000, .i32⟩
  | 109 => ⟨S4000000, .i32⟩
  | 110 => ⟨S4000000, .i32⟩
  | 111 => ⟨S4000000x1, .i32⟩
  | 112 => ⟨S4000000, .f32⟩
  | 113 => ⟨S_, .i32⟩
  | 114 => ⟨S4000000, .i32⟩
  | 115 => ⟨S4000000, .i1⟩
  | 116 => ⟨S_, .i32⟩
  | 117 => ⟨S4000000, .i32⟩
  | 118 => ⟨S4000000, .i32⟩
  | 119 => ⟨S4000000, .i32⟩
  | 120 => ⟨S4000000x1, .i32⟩
  | 121 => ⟨S4000000, .f32⟩
  | 122 => ⟨S4000000, .f32⟩
  | 123 => ⟨S4000000x1, .f32⟩
  | 124 => ⟨S_, .i32⟩
  | 125 => ⟨S4000000, .i32⟩
  | 126 => ⟨S4000000, .i1⟩
  | 127 => ⟨S_, .i32⟩
  | _ => ⟨S250000x2, .f32⟩

abbrev hbmTy0_1 (i : Nat) : BufTy := match i % 128 with
  | 0 => ⟨S4000000, .i32⟩
  | 1 => ⟨S4000000, .i32⟩
  | 2 => ⟨S4000000, .i32⟩
  | 3 => ⟨S4000000x1, .i32⟩
  | 4 => ⟨S4000000x1, .f32⟩
  | 5 => ⟨S4000000x1, .f32⟩
  | 6 => ⟨S_, .f32⟩
  | 7 => ⟨S250000x1, .f32⟩
  | 8 => ⟨S4000000x1, .i32⟩
  | 9 => ⟨S250000x1, .f32⟩
  | 10 => ⟨S250000x1, .f32⟩
  | 11 => ⟨S1x1, .f32⟩
  | 12 => ⟨S250000x1, .f32⟩
  | _ => ⟨S250000x2, .f32⟩

abbrev hbmTy (i : Nat) : BufTy := match i / 128 with
  | 0 => hbmTy0_0 i
  | 1 => hbmTy0_1 i
  | _ => ⟨S250000x2, .f32⟩

abbrev bufTy : (tb : Table) → Fin (tcTables nBuf tb) → BufTy
  | .hbm, ⟨i, _⟩ => hbmTy i
  | .local _ .vmem, ⟨0, _⟩ => ⟨S5000x2, .f32⟩
  | .local _ .vmem, ⟨1, _⟩ => ⟨S5000x2, .f32⟩
  | .local _ .vmem, ⟨2, _⟩ => ⟨S2x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S5000x1, .f32⟩
  | .local _ .vmem, ⟨10, _⟩ => ⟨S5000x1, .f32⟩
  | .local _ .vmem, ⟨11, _⟩ => ⟨S1x16, .f32⟩
  | .local _ .vmem, ⟨12, _⟩ => ⟨S5000x16, .f32⟩
  | .local _ .vmem, ⟨13, _⟩ => ⟨S5000x16, .f32⟩
  | .local _ .vmem, ⟨14, _⟩ => ⟨S5000x16, .f32⟩
  | .local _ .vmem, ⟨15, _⟩ => ⟨S5000x16, .f32⟩
  | .local _ .vmem, ⟨16, _⟩ => ⟨S16x16, .f32⟩
  | .local _ .vmem, ⟨17, _⟩ => ⟨S5000x16, .f32⟩
  | .local _ .vmem, ⟨18, _⟩ => ⟨S5000x16, .f32⟩
  | .local _ .vmem, ⟨19, _⟩ => ⟨S5000x16, .f32⟩
  | .local _ .vmem, ⟨20, _⟩ => ⟨S5000x16, .f32⟩
  | .local _ .vmem, ⟨21, _⟩ => ⟨S5000x16, .f32⟩
  | .local _ .vmem, ⟨22, _⟩ => ⟨S5000x16, .f32⟩
  | .local _ .vmem, ⟨23, _⟩ => ⟨S5000x1, .f32⟩
  | .local _ .vmem, ⟨24, _⟩ => ⟨S5000x1, .f32⟩
  | .local _ .vmem, ⟨25, _⟩ => ⟨S1x16, .f32⟩
  | .local _ .vmem, ⟨26, _⟩ => ⟨S5000x16, .f32⟩
  | .local _ .vmem, ⟨27, _⟩ => ⟨S5000x16, .f32⟩
  | .local _ .vmem, ⟨28, _⟩ => ⟨S5000x16, .f32⟩
  | .local _ .vmem, ⟨29, _⟩ => ⟨S5000x16, .f32⟩
  | .local _ .vmem, ⟨30, _⟩ => ⟨S16x1, .f32⟩
  | .local _ .vmem, ⟨31, _⟩ => ⟨S5000x1, .f32⟩
  | .local _ .vmem, ⟨32, _⟩ => ⟨S5000x1, .f32⟩
  | .local _ .vmem, ⟨33, _⟩ => ⟨S5000x1, .f32⟩
  | .local _ .vmem, ⟨34, _⟩ => ⟨S5000x1, .f32⟩
  | .local _ .vmem, ⟨35, _⟩ => ⟨S5000x1, .f32⟩
  | .local _ .vmem, ⟨36, _⟩ => ⟨S5000x1, .f32⟩
  | .local _ .vmem, ⟨37, _⟩ => ⟨S5000x1, .f32⟩
  | .local _ .vmem, ⟨38, _⟩ => ⟨S5000x1, .f32⟩
  | .local _ .vmem, ⟨39, _⟩ => ⟨S1x1, .f32⟩
  | .local _ .vmem, ⟨40, _⟩ => ⟨S5000x1, .f32⟩
  | .local _ .vmem, ⟨41, _⟩ => ⟨S5000x1, .f32⟩
  | _, _ => ⟨S250000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_11 : Ref sig .tc := ⟨.hbm, 74, rfl⟩
abbrev main_v53 : Ref sig .tc := ⟨.hbm, 75, rfl⟩
abbrev main_v54 : Ref sig .tc := ⟨.hbm, 76, rfl⟩
abbrev main_c_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_13 : Ref sig .tc := ⟨.hbm, 85, rfl⟩
abbrev main_v62 : Ref sig .tc := ⟨.hbm, 86, rfl⟩
abbrev main_v63 : Ref sig .tc := ⟨.hbm, 87, rfl⟩
abbrev main_c_14 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_15 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_c_16 : Ref sig .tc := ⟨.hbm, 104, rfl⟩
abbrev main_v78 : Ref sig .tc := ⟨.hbm, 105, rfl⟩
abbrev main_v79 : Ref sig .tc := ⟨.hbm, 106, rfl⟩
abbrev main_c_17 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_c_18 : Ref sig .tc := ⟨.hbm, 113, rfl⟩
abbrev main_v85 : Ref sig .tc := ⟨.hbm, 114, rfl⟩
abbrev main_v86 : Ref sig .tc := ⟨.hbm, 115, rfl⟩
abbrev main_c_19 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_c_20 : Ref sig .tc := ⟨.hbm, 124, rfl⟩
abbrev main_v94 : Ref sig .tc := ⟨.hbm, 125, rfl⟩
abbrev main_v95 : Ref sig .tc := ⟨.hbm, 126, rfl⟩
abbrev main_c_21 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_cst_22 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x16 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S16x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S4000000 : S_.BroadcastsInDim S4000000 (![] : Fin 0 → Fin S4000000.rank)
  bcast_S_S250000 : S_.BroadcastsInDim S250000 (![] : Fin 0 → Fin S250000.rank)
  bcast_S4000000_S4000000x1_0 : S4000000.BroadcastsInDim S4000000x1 (![0] : Fin 1 → Fin S4000000x1.rank)
  inb_S5000x2_S5000x2_0_0 : ∀ a, (![0, 0] : Fin 2 → Nat) a + S5000x2.size a ≤ S5000x2.size a
  h_S5000x2 : 0 < S5000x2.numel
  bitsLt_bf16_f32 : FTy.bits .bf16 < FTy.bits .f32
  inb_S2x16_S2x16_0_0 : ∀ a, (![0, 0] : Fin 2 → Nat) a + S2x16.size a ≤ S2x16.size a
  h_S2x16 : 0 < S2x16.numel
  inb_S5000x16_S5000x16_0_0 : ∀ a, (![0, 0] : Fin 2 → Nat) a + S5000x16.size a ≤ S5000x16.size a
  h_S5000x16 : 0 < S5000x16.numel
  bcast_S4000000x1_S4000000x16_0_1 : S4000000x1.BroadcastsInDim S4000000x16 (![0, 1] : Fin 2 → Fin S4000000x16.rank)
  bcast_S_S250000x16 : S_.BroadcastsInDim S250000x16 (![] : Fin 0 → Fin S250000x16.rank)
  shapeCasts_S250000_S250000x1 : S250000.ShapeCasts S250000x1
  shapeCasts_S16_S1x16 : S16.ShapeCasts S1x16
  shapeCasts_S5000x16_S5000x16 : S5000x16.ShapeCasts S5000x16
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x16 : S5000x1.Broadcasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x16_S16x16_0_0 : ∀ a, (![0, 0] : Fin 2 → Nat) a + S16x16.size a ≤ S16x16.size a
  h_S16x16 : 0 < S16x16.numel
  inb_S16x1_S16x1_0_0 : ∀ a, (![0, 0] : Fin 2 → Nat) a + S16x1.size a ≤ S16x1.size a
  h_S16x1 : 0 < S16x1.numel
  bcast_S_S250000x1 : S_.BroadcastsInDim S250000x1 (![] : Fin 0 → Fin S250000x1.rank)
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S250000_S4000000x1_S4000000_n_0_0_1_wf : ScatterDims.WF S250000 S4000000x1 S4000000 [] [0] [0] 1
  dot_S5000x2_S2x16_S5000x16_1_0_0_1_n_n_wf : DotDims.WF S5000x2 S2x16 S5000x16 [1] [0] [0] [1] [] []
  gather_S250000_S4000000x1_S4000000_n_0_n_n_0_1_1_wf : GatherDims.WF S250000 S4000000x1 S4000000 [] [0] [] [0] [] 1 ![1]
  gather_S250000x16_S4000000x1_S4000000x16_1_0_n_n_0_1_116_wf : GatherDims.WF S250000x16 S4000000x1 S4000000x16 [1] [0] [] [0] [] 1 ![1, 16]
  scatter_S250000x16_S4000000x1_S4000000x16_1_0_0_1_wf : ScatterDims.WF S250000x16 S4000000x1 S4000000x16 [1] [0] [0] 1
  dot_S5000x16_S16x16_S5000x16_1_0_0_1_n_n_wf : DotDims.WF S5000x16 S16x16 S5000x16 [1] [0] [0] [1] [] []
  dot_S5000x16_S16x1_S5000x1_1_0_0_1_n_n_wf : DotDims.WF S5000x16 S16x1 S5000x1 [1] [0] [0] [1] [] []
  gather_S250000x1_S4000000x1_S4000000x1_1_0_n_n_0_1_11_wf : GatherDims.WF S250000x1 S4000000x1 S4000000x1 [1] [0] [] [0] [] 1 ![1, 1]
  scatter_S250000x1_S4000000x1_S4000000x1_1_0_0_1_wf : ScatterDims.WF S250000x1 S4000000x1 S4000000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x2.size a ≤ S250000x2.size a
  hwx0_0 : ∀ i : grid0.Coords, EltTy.bits .f32 = 32 ∨ (Rect.block (s := S250000x2) S5000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x16.size a ≤ S2x16.size a
  hwx0_1 : ∀ i : grid0.Coords, EltTy.bits .f32 = 32 ∨ (Rect.block (s := S2x16) S2x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S250000x16.size a
  hwx0_2 : ∀ i : grid0.Coords, EltTy.bits .f32 = 32 ∨ (Rect.block (s := S250000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S250000x16.size a
  hwx1_0 : ∀ i : grid1.Coords, EltTy.bits .f32 = 32 ∨ (Rect.block (s := S250000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S250000x16.size a
  hwx1_1 : ∀ i : grid1.Coords, EltTy.bits .f32 = 32 ∨ (Rect.block (s := S250000x16) S5000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S250000x1.size a
  hwx1_2 : ∀ i : grid1.Coords, EltTy.bits .f32 = 32 ∨ (Rect.block (s := S250000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x16.size a ≤ S250000x16.size a
  hwx1_4 : ∀ i : grid1.Coords, EltTy.bits .f32 = 32 ∨ (Rect.block (s := S250000x16) S5000x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S250000x16.size a
  hwx2_0 : ∀ i : grid2.Coords, EltTy.bits .f32 = 32 ∨ (Rect.block (s := S250000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x16.size a ≤ S16x16.size a
  hwx2_1 : ∀ i : grid2.Coords, EltTy.bits .f32 = 32 ∨ (Rect.block (s := S16x16) S16x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S250000x16.size a
  hwx2_2 : ∀ i : grid2.Coords, EltTy.bits .f32 = 32 ∨ (Rect.block (s := S250000x16) S5000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S250000x16.size a
  hwx3_0 : ∀ i : grid3.Coords, EltTy.bits .f32 = 32 ∨ (Rect.block (s := S250000x16) S5000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x16.size a ≤ S250000x16.size a
  hwx3_1 : ∀ i : grid3.Coords, EltTy.bits .f32 = 32 ∨ (Rect.block (s := S250000x16) S5000x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S250000x1.size a
  hwx3_2 : ∀ i : grid3.Coords, EltTy.bits .f32 = 32 ∨ (Rect.block (s := S250000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x16.size a ≤ S1x16.size a
  hwx3_3 : ∀ i : grid3.Coords, EltTy.bits .f32 = 32 ∨ (Rect.block (s := S1x16) S1x16.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x16.size a ≤ S250000x16.size a
  hwx3_4 : ∀ i : grid3.Coords, EltTy.bits .f32 = 32 ∨ (Rect.block (s := S250000x16) S5000x16.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x16.size a ≤ S250000x16.size a
  hwx4_0 : ∀ i : grid4.Coords, EltTy.bits .f32 = 32 ∨ (Rect.block (s := S250000x16) S5000x16.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S16x1.size a ≤ S16x1.size a
  hwx4_1 : ∀ i : grid4.Coords, EltTy.bits .f32 = 32 ∨ (Rect.block (s := S16x1) S16x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S250000x1.size a
  hwx4_2 : ∀ i : grid4.Coords, EltTy.bits .f32 = 32 ∨ (Rect.block (s := S250000x1) S5000x1.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x1.size a ≤ S250000x1.size a
  hwx5_0 : ∀ i : grid5.Coords, EltTy.bits .f32 = 32 ∨ (Rect.block (s := S250000x1) S5000x1.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S250000x1.size a
  hwx5_1 : ∀ i : grid5.Coords, EltTy.bits .f32 = 32 ∨ (Rect.block (s := S250000x1) S5000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S250000x1.size a
  hwx5_2 : ∀ i : grid5.Coords, EltTy.bits .f32 = 32 ∨ (Rect.block (s := S250000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x1.size a ≤ S1x1.size a
  hwx5_3 : ∀ i : grid5.Coords, EltTy.bits .f32 = 32 ∨ (Rect.block (s := S1x1) S1x1.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x1.size a ≤ S250000x1.size a
  hwx5_4 : ∀ i : grid5.Coords, EltTy.bits .f32 = 32 ∨ (Rect.block (s := S250000x1) S5000x1.size (cc5_transform_4 i) (hinb5_4 i)).WholeWords (EltTy.packing .f32)

variable [Facts₀]

def scatter_S250000_S4000000x1_S4000000_n_0_0_1 : ScatterDims S250000 S4000000x1 S4000000 where
  updateWindowDims := []
  insertedWindowDims := [0]
  scatterDimsToOperandDims := [0]
  indexVectorDim := 1
  wf := scatter_S250000_S4000000x1_S4000000_n_0_0_1_wf
def dot_S5000x2_S2x16_S5000x16_1_0_0_1_n_n : DotDims S5000x2 S2x16 S5000x16 where
  lhsContracting := [1]
  rhsContracting := [0]
  lhsNonContracting := [0]
  rhsNonContracting := [1]
  lhsBatch := []
  rhsBatch := []
  wf := dot_S5000x2_S2x16_S5000x16_1_0_0_1_n_n_wf
def gather_S250000_S4000000x1_S4000000_n_0_n_n_0_1_1 : GatherDims S250000 S4000000x1 S4000000 where
  offsetDims := []
  collapsedSliceDims := [0]
  operandBatchingDims := []
  startIndicesBatchingDims := []
  startIndexMap := [0]
  indexVectorDim := 1
  sliceSizes := ![1]
  wf := gather_S250000_S4000000x1_S4000000_n_0_n_n_0_1_1_wf
def gather_S250000x16_S4000000x1_S4000000x16_1_0_n_n_0_1_116 : GatherDims S250000x16 S4000000x1 S4000000x16 where
  offsetDims := [1]
  collapsedSliceDims := [0]
  operandBatchingDims := []
  startIndicesBatchingDims := []
  startIndexMap := [0]
  indexVectorDim := 1
  sliceSizes := ![1, 16]
  wf := gather_S250000x16_S4000000x1_S4000000x16_1_0_n_n_0_1_116_wf
def scatter_S250000x16_S4000000x1_S4000000x16_1_0_0_1 : ScatterDims S250000x16 S4000000x1 S4000000x16 where
  updateWindowDims := [1]
  insertedWindowDims := [0]
  scatterDimsToOperandDims := [0]
  indexVectorDim := 1
  wf := scatter_S250000x16_S4000000x1_S4000000x16_1_0_0_1_wf
def dot_S5000x16_S16x16_S5000x16_1_0_0_1_n_n : DotDims S5000x16 S16x16 S5000x16 where
  lhsContracting := [1]
  rhsContracting := [0]
  lhsNonContracting := [0]
  rhsNonContracting := [1]
  lhsBatch := []
  rhsBatch := []
  wf := dot_S5000x16_S16x16_S5000x16_1_0_0_1_n_n_wf
def dot_S5000x16_S16x1_S5000x1_1_0_0_1_n_n : DotDims S5000x16 S16x1 S5000x1 where
  lhsContracting := [1]
  rhsContracting := [0]
  lhsNonContracting := [0]
  rhsNonContracting := [1]
  lhsBatch := []
  rhsBatch := []
  wf := dot_S5000x16_S16x1_S5000x1_1_0_0_1_n_n_wf
def gather_S250000x1_S4000000x1_S4000000x1_1_0_n_n_0_1_11 : GatherDims S250000x1 S4000000x1 S4000000x1 where
  offsetDims := [1]
  collapsedSliceDims := [0]
  operandBatchingDims := []
  startIndicesBatchingDims := []
  startIndexMap := [0]
  indexVectorDim := 1
  sliceSizes := ![1, 1]
  wf := gather_S250000x1_S4000000x1_S4000000x1_1_0_n_n_0_1_11_wf
def scatter_S250000x1_S4000000x1_S4000000x1_1_0_0_1 : ScatterDims S250000x1 S4000000x1 S4000000x1 where
  updateWindowDims := [1]
  insertedWindowDims := [0]
  scatterDimsToOperandDims := [0]
  indexVectorDim := 1
  wf := scatter_S250000x1_S4000000x1_S4000000x1_1_0_0_1_wf

abbrev win0_0 : Pipeline.Window sig grid0 :=
  Pipeline.Window.ofSpec (Memref.whole main_arg0) S5000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S5000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v45) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v73) S5000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v74) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v75) S1x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v76) S5000x16.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v76) S5000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S16x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v77) S5000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S5000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v104) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v105) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v106) S1x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v107) S5000x1.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S250000x2 : Shape := ⟨2, ![250000, 2]⟩
abbrev S2x4000000 : Shape := ⟨2, ![2, 4000000]⟩
abbrev S2x16 : Shape := ⟨2, ![2, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S1x4000000 : Shape := ⟨2, ![1, 4000000]⟩
abbrev S4000000 : Shape := ⟨1, ![4000000]⟩
abbrev S250000x16 : Shape := ⟨2, ![250000, 16]⟩
abbrev S_ : Shape := ⟨0, ![]⟩
abbrev S250000 : Shape := ⟨1, ![250000]⟩
abbrev S4000000x1 : Shape := ⟨2, ![4000000, 1]⟩
abbrev S4000000x16 : Shape := ⟨2, ![4000000, 16]⟩
abbrev S250000x1 : Shape := ⟨2, ![250000, 1]⟩
abbrev S1x16 : Shape := ⟨2, ![1, 16]⟩
abbrev S1x1 : Shape := ⟨2, ![1, 1]⟩

abbrev nBuf : Space → Nat
  | .hbm => 184
  | .vmem => 0
  | .smem => 0
  | _ => 0

abbrev hbmTy0_0 (i : Nat) : BufTy := match i % 128 with
  | 0 => ⟨S250000x2, .f32⟩
  | 1 => ⟨S2x4000000, .i32⟩
  | 2 => ⟨S2x16, .f32⟩
  | 3 => ⟨S16, .f32⟩
  | 4 => ⟨S16x16, .f32⟩
  | 5 => ⟨S16, .f32⟩
  | 6 => ⟨S16x1, .f32⟩
  | 7 => ⟨S1, .f32⟩
  | 8 => ⟨S1x4000000, .i32⟩
  | 9 => ⟨S4000000, .i32⟩
  | 10 => ⟨S1x4000000, .i32⟩
  | 11 => ⟨S4000000, .i32⟩
  | 12 => ⟨S250000x16, .f32⟩
  | 13 => ⟨S_, .f32⟩
  | 14 => ⟨S4000000, .f32⟩
  | 15 => ⟨S_, .f32⟩
  | 16 => ⟨S250000, .f32⟩
  | 17 => ⟨S4000000x1, .i32⟩
  | 18 => ⟨S250000, .f32⟩
  | 19 => ⟨S_, .f32⟩
  | 20 => ⟨S250000, .f32⟩
  | 21 => ⟨S250000, .f32⟩
  | 22 => ⟨S_, .f32⟩
  | 23 => ⟨S250000, .f32⟩
  | 24 => ⟨S250000, .f32⟩
  | 25 => ⟨S_, .i32⟩
  | 26 => ⟨S4000000, .i32⟩
  | 27 => ⟨S4000000, .i1⟩
  | 28 => ⟨S_, .i32⟩
  | 29 => ⟨S4000000, .i32⟩
  | 30 => ⟨S4000000, .i32⟩
  | 31 => ⟨S4000000, .i32⟩
  | 32 => ⟨S4000000x1, .i32⟩
  | 33 => ⟨S4000000, .f32⟩
  | 34 => ⟨S_, .i32⟩
  | 35 => ⟨S4000000, .i32⟩
  | 36 => ⟨S4000000, .i1⟩
  | 37 => ⟨S_, .i32⟩
  | 38 => ⟨S4000000, .i32⟩
  | 39 => ⟨S4000000, .i32⟩
  | 40 => ⟨S4000000, .i32⟩
  | 41 => ⟨S4000000x1, .i32⟩
  | 42 => ⟨S4000000, .f32⟩
  | 43 => ⟨S4000000, .f32⟩
  | 44 => ⟨S4000000x1, .f32⟩
  | 45 => ⟨S_, .i32⟩
  | 46 => ⟨S4000000, .i32⟩
  | 47 => ⟨S4000000, .i1⟩
  | 48 => ⟨S_, .i32⟩
  | 49 => ⟨S4000000, .i32⟩
  | 50 => ⟨S4000000, .i32⟩
  | 51 => ⟨S4000000, .i32⟩
  | 52 => ⟨S4000000x1, .i32⟩
  | 53 => ⟨S4000000x16, .f32⟩
  | 54 => ⟨S4000000x16, .f32⟩
  | 55 => ⟨S4000000x16, .f32⟩
  | 56 => ⟨S_, .f32⟩
  | 57 => ⟨S250000x16, .f32⟩
  | 58 => ⟨S4000000x1, .i32⟩
  | 59 => ⟨S250000x16, .f32⟩
  | 60 => ⟨S250000, .f32⟩
  | 61 => ⟨S250000x1, .f32⟩
  | 62 => ⟨S250000x16, .f32⟩
  | 63 => ⟨S250000x16, .f32⟩
  | 64 => ⟨S250000x16, .f32⟩
  | 65 => ⟨S1x16, .f32⟩
  | 66 => ⟨S250000x16, .f32⟩
  | 67 => ⟨S250000x16, .f32⟩
  | 68 => ⟨S_, .f32⟩
  | 69 => ⟨S250000x16, .f32⟩
  | 70 => ⟨S250000x16, .f32⟩
  | 71 => ⟨S250000x16, .f32⟩
  | 72 => ⟨S_, .f32⟩
  | 73 => ⟨S4000000, .f32⟩
  | 74 => ⟨S_, .f32⟩
  | 75 => ⟨S250000, .f32⟩
  | 76 => ⟨S4000000x1, .i32⟩
  | 77 => ⟨S250000, .f32⟩
  | 78 => ⟨S_, .f32⟩
  | 79 => ⟨S250000, .f32⟩
  | 80 => ⟨S250000, .f32⟩
  | 81 => ⟨S_, .f32⟩
  | 82 => ⟨S250000, .f32⟩
  | 83 => ⟨S250000, .f32⟩
  | 84 => ⟨S_, .i32⟩
  | 85 => ⟨S4000000, .i32⟩
  | 86 => ⟨S4000000, .i1⟩
  | 87 => ⟨S_, .i32⟩
  | 88 => ⟨S4000000, .i32⟩
  | 89 => ⟨S4000000, .i32⟩
  | 90 => ⟨S4000000, .i32⟩
  | 91 => ⟨S4000000x1, .i32⟩
  | 92 => ⟨S4000000, .f32⟩
  | 93 => ⟨S_, .i32⟩
  | 94 => ⟨S4000000, .i32⟩
  | 95 => ⟨S4000000, .i1⟩
  | 96 => ⟨S_, .i32⟩
  | 97 => ⟨S4000000, .i32⟩
  | 98 => ⟨S4000000, .i32⟩
  | 99 => ⟨S4000000, .i32⟩
  | 100 => ⟨S4000000x1, .i32⟩
  | 101 => ⟨S4000000, .f32⟩
  | 102 => ⟨S4000000, .f32⟩
  | 103 => ⟨S4000000x1, .f32⟩
  | 104 => ⟨S_, .i32⟩
  | 105 => ⟨S4000000, .i32⟩
  | 106 => ⟨S4000000, .i1⟩
  | 107 => ⟨S_, .i32⟩
  | 108 => ⟨S4000000, .i32⟩
  | 109 => ⟨S4000000, .i32⟩
  | 110 => ⟨S4000000, .i32⟩
  | 111 => ⟨S4000000x1, .i32⟩
  | 112 => ⟨S4000000x16, .f32⟩
  | 113 => ⟨S4000000x16, .f32⟩
  | 114 => ⟨S4000000x16, .f32⟩
  | 115 => ⟨S_, .f32⟩
  | 116 => ⟨S250000x16, .f32⟩
  | 117 => ⟨S4000000x1, .i32⟩
  | 118 => ⟨S250000x16, .f32⟩
  | 119 => ⟨S250000, .f32⟩
  | 120 => ⟨S250000x1, .f32⟩
  | 121 => ⟨S250000x16, .f32⟩
  | 122 => ⟨S250000x16, .f32⟩
  | 123 => ⟨S250000x16, .f32⟩
  | 124 => ⟨S1x16, .f32⟩
  | 125 => ⟨S250000x16, .f32⟩
  | 126 => ⟨S250000x16, .f32⟩
  | 127 => ⟨S_, .f32⟩
  | _ => ⟨S250000x2, .f32⟩

abbrev hbmTy0_1 (i : Nat) : BufTy := match i % 128 with
  | 0 => ⟨S250000x16, .f32⟩
  | 1 => ⟨S250000x16, .f32⟩
  | 2 => ⟨S250000x1, .f32⟩
  | 3 => ⟨S_, .f32⟩
  | 4 => ⟨S4000000, .f32⟩
  | 5 => ⟨S_, .f32⟩
  | 6 => ⟨S250000, .f32⟩
  | 7 => ⟨S4000000x1, .i32⟩
  | 8 => ⟨S250000, .f32⟩
  | 9 => ⟨S_, .f32⟩
  | 10 => ⟨S250000, .f32⟩
  | 11 => ⟨S250000, .f32⟩
  | 12 => ⟨S_, .f32⟩
  | 13 => ⟨S250000, .f32⟩
  | 14 => ⟨S250000, .f32⟩
  | 15 => ⟨S_, .i32⟩
  | 16 => ⟨S4000000, .i32⟩
  | 17 => ⟨S4000000, .i1⟩
  | 18 => ⟨S_, .i32⟩
  | 19 => ⟨S4000000, .i32⟩
  | 20 => ⟨S4000000, .i32⟩
  | 21 => ⟨S4000000, .i32⟩
  | 22 => ⟨S4000000x1, .i32⟩
  | 23 => ⟨S4000000, .f32⟩
  | 24 => ⟨S_, .i32⟩
  | 25 => ⟨S4000000, .i32⟩
  | 26 => ⟨S4000000, .i1⟩
  | 27 => ⟨S_, .i32⟩
  | 28 => ⟨S4000000, .i32⟩
  | 29 => ⟨S4000000, .i32⟩
  | 30 => ⟨S4000000, .i32⟩
  | 31 => ⟨S4000000x1, .i32⟩
  | 32 => ⟨S4000000, .f32⟩
  | 33 => ⟨S4000000, .f32⟩
  | 34 => ⟨S4000000x1, .f32⟩
  | 35 => ⟨S_, .i32⟩
  | 36 => ⟨S4000000, .i32⟩
  | 37 => ⟨S4000000, .i1⟩
  | 38 => ⟨S_, .i32⟩
  | 39 => ⟨S4000000, .i32⟩
  | 40 => ⟨S4000000, .i32⟩
  | 41 => ⟨S4000000, .i32⟩
  | 42 => ⟨S4000000x1, .i32⟩
  | 43 => ⟨S4000000x1, .f32⟩
  | 44 => ⟨S4000000x1, .f32⟩
  | 45 => ⟨S_, .f32⟩
  | 46 => ⟨S250000x1, .f32⟩
  | 47 => ⟨S4000000x1, .i32⟩
  | 48 => ⟨S250000x1, .f32⟩
  | 49 => ⟨S250000, .f32⟩
  | 50 => ⟨S250000x1, .f32⟩
  | 51 => ⟨S250000x1, .f32⟩
  | 52 => ⟨S250000x1, .f32⟩
  | 53 => ⟨S1x1, .f32⟩
  | 54 => ⟨S250000x1, .f32⟩
  | 55 => ⟨S250000x1, .f32⟩
  | _ => ⟨S250000x2, .f32⟩

abbrev hbmTy (i : Nat) : BufTy := match i / 128 with
  | 0 => hbmTy0_0 i
  | 1 => hbmTy0_1 i
  | _ => ⟨S250000x2, .f32⟩

abbrev bufTy : (tb : Table) → Fin (tcTables nBuf tb) → BufTy
  | .hbm, ⟨i, _⟩ => hbmTy i
  | _, _ => ⟨S250000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call0_cst : Ref sig .tc := ⟨.hbm, 68, rfl⟩
abbrev main_call0_v0 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_c_13 : Ref sig .tc := ⟨.hbm, 84, rfl⟩
abbrev main_v59 : Ref sig .tc := ⟨.hbm, 85, rfl⟩
abbrev main_v60 : Ref sig .tc := ⟨.hbm, 86, rfl⟩
abbrev main_c_14 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_15 : Ref sig .tc := ⟨.hbm, 93, rfl⟩
abbrev main_v66 : Ref sig .tc := ⟨.hbm, 94, rfl⟩
abbrev main_v67 : Ref sig .tc := ⟨.hbm, 95, rfl⟩
abbrev main_c_16 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_17 : Ref sig .tc := ⟨.hbm, 104, rfl⟩
abbrev main_v75 : Ref sig .tc := ⟨.hbm, 105, rfl⟩
abbrev main_v76 : Ref sig .tc := ⟨.hbm, 106, rfl⟩
abbrev main_c_18 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_19 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_call1_cst : Ref sig .tc := ⟨.hbm, 127, rfl⟩
abbrev main_call1_v0 : Ref sig .tc := ⟨.hbm, 128, rfl⟩
abbrev main_v95 : Ref sig .tc := ⟨.hbm, 129, rfl⟩
abbrev main_v96 : Ref sig .tc := ⟨.hbm, 130, rfl⟩
abbrev main_cst_20 : Ref sig .tc := ⟨.hbm, 131, rfl⟩
abbrev main_v97 : Ref sig .tc := ⟨.hbm, 132, rfl⟩
abbrev main_cst_21 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_22 : Ref sig .tc := ⟨.hbm, 137, rfl⟩
abbrev main_v101 : Ref sig .tc := ⟨.hbm, 138, rfl⟩
abbrev main_v102 : Ref sig .tc := ⟨.hbm, 139, rfl⟩
abbrev main_cst_23 : Ref sig .tc := ⟨.hbm, 140, rfl⟩
abbrev main_v103 : Ref sig .tc := ⟨.hbm, 141, rfl⟩
abbrev main_v104 : Ref sig .tc := ⟨.hbm, 142, rfl⟩
abbrev main_c_24 : Ref sig .tc := ⟨.hbm, 143, rfl⟩
abbrev main_v105 : Ref sig .tc := ⟨.hbm, 144, rfl⟩
abbrev main_v106 : Ref sig .tc := ⟨.hbm, 145, rfl⟩
abbrev main_c_25 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_c_26 : Ref sig .tc := ⟨.hbm, 152, rfl⟩
abbrev main_v112 : Ref sig .tc := ⟨.hbm, 153, rfl⟩
abbrev main_v113 : Ref sig .tc := ⟨.hbm, 154, rfl⟩
abbrev main_c_27 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_c_28 : Ref sig .tc := ⟨.hbm, 163, rfl⟩
abbrev main_v121 : Ref sig .tc := ⟨.hbm, 164, rfl⟩
abbrev main_v122 : Ref sig .tc := ⟨.hbm, 165, rfl⟩
abbrev main_c_29 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_cst_30 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩

abbrev nD : Nat := 1
abbrev τ : Topo := Topo.v7x

variable {F : FTy → Type} [FloatOps F]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S4000000 : S_.BroadcastsInDim S4000000 (![] : Fin 0 → Fin S4000000.rank)
  bcast_S_S250000 : S_.BroadcastsInDim S250000 (![] : Fin 0 → Fin S250000.rank)
  bcast_S4000000_S4000000x1_0 : S4000000.BroadcastsInDim S4000000x1 (![0] : Fin 1 → Fin S4000000x1.rank)
  bcast_S4000000x1_S4000000x16_0_1 : S4000000x1.BroadcastsInDim S4000000x16 (![0, 1] : Fin 2 → Fin S4000000x16.rank)
  bcast_S_S250000x16 : S_.BroadcastsInDim S250000x16 (![] : Fin 0 → Fin S250000x16.rank)
  bcast_S250000_S250000x1_0 : S250000.BroadcastsInDim S250000x1 (![0] : Fin 1 → Fin S250000x1.rank)
  bcast_S250000x1_S250000x16_0_1 : S250000x1.BroadcastsInDim S250000x16 (![0, 1] : Fin 2 → Fin S250000x16.rank)
  bcast_S16_S1x16_1 : S16.BroadcastsInDim S1x16 (![1] : Fin 1 → Fin S1x16.rank)
  bcast_S1x16_S250000x16_0_1 : S1x16.BroadcastsInDim S250000x16 (![0, 1] : Fin 2 → Fin S250000x16.rank)
  bcast_S_S250000x1 : S_.BroadcastsInDim S250000x1 (![] : Fin 0 → Fin S250000x1.rank)
  bcast_S1_S1x1_1 : S1.BroadcastsInDim S1x1 (![1] : Fin 1 → Fin S1x1.rank)
  bcast_S1x1_S250000x1_0_1 : S1x1.BroadcastsInDim S250000x1 (![0, 1] : Fin 2 → Fin S250000x1.rank)
  dot_S250000x2_S2x16_S250000x16_1_0_0_1_n_n_wf : DotDims.WF S250000x2 S2x16 S250000x16 [1] [0] [0] [1] [] []
  scatter_S250000_S4000000x1_S4000000_n_0_0_1_wf : ScatterDims.WF S250000 S4000000x1 S4000000 [] [0] [0] 1
  gather_S250000_S4000000x1_S4000000_n_0_n_n_0_1_1_wf : GatherDims.WF S250000 S4000000x1 S4000000 [] [0] [] [0] [] 1 ![1]
  gather_S250000x16_S4000000x1_S4000000x16_1_0_n_n_0_1_116_wf : GatherDims.WF S250000x16 S4000000x1 S4000000x16 [1] [0] [] [0] [] 1 ![1, 16]
  scatter_S250000x16_S4000000x1_S4000000x16_1_0_0_1_wf : ScatterDims.WF S250000x16 S4000000x1 S4000000x16 [1] [0] [0] 1
  dot_S250000x16_S16x16_S250000x16_1_0_0_1_n_n_wf : DotDims.WF S250000x16 S16x16 S250000x16 [1] [0] [0] [1] [] []
  dot_S250000x16_S16x1_S250000x1_1_0_0_1_n_n_wf : DotDims.WF S250000x16 S16x1 S250000x1 [1] [0] [0] [1] [] []
  gather_S250000x1_S4000000x1_S4000000x1_1_0_n_n_0_1_11_wf : GatherDims.WF S250000x1 S4000000x1 S4000000x1 [1] [0] [] [0] [] 1 ![1, 1]
  scatter_S250000x1_S4000000x1_S4000000x1_1_0_0_1_wf : ScatterDims.WF S250000x1 S4000000x1 S4000000x1 [1] [0] [0] 1

variable [Facts₀]

def dot_S250000x2_S2x16_S250000x16_1_0_0_1_n_n : DotDims S250000x2 S2x16 S250000x16 where
  lhsContracting := [1]
  rhsContracting := [0]
  lhsNonContracting := [0]
  rhsNonContracting := [1]
  lhsBatch := []
  rhsBatch := []
  wf := dot_S250000x2_S2x16_S250000x16_1_0_0_1_n_n_wf
def scatter_S250000_S4000000x1_S4000000_n_0_0_1 : ScatterDims S250000 S4000000x1 S4000000 where
  updateWindowDims := []
  insertedWindowDims := [0]
  scatterDimsToOperandDims := [0]
  indexVectorDim := 1
  wf := scatter_S250000_S4000000x1_S4000000_n_0_0_1_wf
def gather_S250000_S4000000x1_S4000000_n_0_n_n_0_1_1 : GatherDims S250000 S4000000x1 S4000000 where
  offsetDims := []
  collapsedSliceDims := [0]
  operandBatchingDims := []
  startIndicesBatchingDims := []
  startIndexMap := [0]
  indexVectorDim := 1
  sliceSizes := ![1]
  wf := gather_S250000_S4000000x1_S4000000_n_0_n_n_0_1_1_wf
def gather_S250000x16_S4000000x1_S4000000x16_1_0_n_n_0_1_116 : GatherDims S250000x16 S4000000x1 S4000000x16 where
  offsetDims := [1]
  collapsedSliceDims := [0]
  operandBatchingDims := []
  startIndicesBatchingDims := []
  startIndexMap := [0]
  indexVectorDim := 1
  sliceSizes := ![1, 16]
  wf := gather_S250000x16_S4000000x1_S4000000x16_1_0_n_n_0_1_116_wf
def scatter_S250000x16_S4000000x1_S4000000x16_1_0_0_1 : ScatterDims S250000x16 S4000000x1 S4000000x16 where
  updateWindowDims := [1]
  insertedWindowDims := [0]
  scatterDimsToOperandDims := [0]
  indexVectorDim := 1
  wf := scatter_S250000x16_S4000000x1_S4000000x16_1_0_0_1_wf
def dot_S250000x16_S16x16_S250000x16_1_0_0_1_n_n : DotDims S250000x16 S16x16 S250000x16 where
  lhsContracting := [1]
  rhsContracting := [0]
  lhsNonContracting := [0]
  rhsNonContracting := [1]
  lhsBatch := []
  rhsBatch := []
  wf := dot_S250000x16_S16x16_S250000x16_1_0_0_1_n_n_wf
def dot_S250000x16_S16x1_S250000x1_1_0_0_1_n_n : DotDims S250000x16 S16x1 S250000x1 where
  lhsContracting := [1]
  rhsContracting := [0]
  lhsNonContracting := [0]
  rhsNonContracting := [1]
  lhsBatch := []
  rhsBatch := []
  wf := dot_S250000x16_S16x1_S250000x1_1_0_0_1_n_n_wf
def gather_S250000x1_S4000000x1_S4000000x1_1_0_n_n_0_1_11 : GatherDims S250000x1 S4000000x1 S4000000x1 where
  offsetDims := [1]
  collapsedSliceDims := [0]
  operandBatchingDims := []
  startIndicesBatchingDims := []
  startIndexMap := [0]
  indexVectorDim := 1
  sliceSizes := ![1, 1]
  wf := gather_S250000x1_S4000000x1_S4000000x1_1_0_n_n_0_1_11_wf
def scatter_S250000x1_S4000000x1_S4000000x1_1_0_0_1 : ScatterDims S250000x1 S4000000x1 S4000000x1 where
  updateWindowDims := [1]
  insertedWindowDims := [0]
  scatterDimsToOperandDims := [0]
  indexVectorDim := 1
  wf := scatter_S250000x1_S4000000x1_S4000000x1_1_0_0_1_wf

class Facts : Prop extends Facts₀ where

variable [Facts]
-- ==== Proof.KernelRun.lean ====
/-
  The idealized kernel's run with its result named.

  The program is six launches among stretches of host operations.  Its generated frame follows the buffers'
  contents from the launch memory through every stretch and every launch (the contents at the ten boundaries,
  the last of them called W10) and reads the final state against the last boundary's contents.  Here the same run
  is read once more, keeping what the final state holds at the result buffer — the last boundary's contents there —
  beside the unchanged arguments.
-/
import proofs.«144625_j11390253269721_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v107) = W10 m ρ c (Proc.devRef .tc main_v107)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v107 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.Named

end
-- ==== Proof.LibTailOps.lean ====
import Idealize.ShloMosaic.Lib.Pipeline.FrameSuffix

/-!
# Straight lines of host operations that each write one buffer of their own

A stretch of host operations in which every operation allocates nothing and writes exactly one buffer, and that
buffer lies in a class `P` of references (for instance "declared at position eleven or later"), leaves every
reference outside `P` as it found it. The per-operation fact is stated so that it is closed by `rfl` and
`decide` on a literal operation, and a whole literal list by walking its cons cells once; what follows from it is
proved once, for any list and any length.
-/

namespace Cert.LibTailOps

open Idealize.ShloMosaic Idealize.ShloMosaic.StableHlo Idealize.ShloMosaic.TcCoe

variable {τ : Topo} {sig : RefSig} {Val : EltTy → Type}

/-- The operation allocates nothing and writes exactly one buffer, a TensorCore reference of class `P`. -/
def WritesOne (P : Ref sig .tc → Prop) (op : HloOp τ sig Val) : Prop :=
  op.fresh = ∅ ∧ ∃ y : Ref sig .tc, P y ∧ op.writes = {Proc.devRef .tc y}

/-- Such an operation writes no reference outside the class. -/
theorem WritesOne.not_mem {P : Ref sig .tc → Prop} {op : HloOp τ sig Val} (h : WritesOne P op)
    {r : Ref sig .tc} (hr : ¬ P r) : Proc.devRef (τ := τ) .tc r ∉ op.writes := by
  obtain ⟨-, y, hy, hw⟩ := h
  rw [hw, Finset.mem_singleton]
  intro e
  exact hr (Proc.devRef_injective _ e ▸ hy)

/-- A reference outside the class keeps its contents through a line of such operations. -/
theorem after_keeps {P : Ref sig .tc → Prop} (ops : List (HloOp τ sig Val)) (V : Valuation τ sig Val)
    (h : ops.Forall (WritesOne P)) {r : Ref sig .tc} (hr : ¬ P r) :
    after ops V (Proc.devRef .tc r) = V (Proc.devRef .tc r) :=
  after_of_forall_not_mem ops V fun op hop => ((List.forall_iff_forall_mem.mp h) op hop).not_mem hr

/-- Several lines, one after the other: every operation of every line has the property. -/
theorem forall_flatten {P : Ref sig .tc → Prop} :
    ∀ (opss : List (List (HloOp τ sig Val))), (opss.Forall fun ops => ops.Forall (WritesOne P)) →
      opss.flatten.Forall (WritesOne P) := by
  intro opss h
  rw [List.forall_iff_forall_mem] at h ⊢
  intro op hop
  obtain ⟨ops, hops, hop'⟩ := List.mem_flatten.mp hop
  exact (List.forall_iff_forall_mem.mp (h ops hops)) op hop'

/-- None of them allocates. -/
theorem fresh_of {P : Ref sig .tc → Prop} (opss : List (List (HloOp τ sig Val)))
    (h : opss.Forall fun ops => ops.Forall (WritesOne P)) :
    ∀ ops ∈ opss, ∀ op ∈ ops, op.fresh = ∅ := fun ops hops op hop =>
  ((List.forall_iff_forall_mem.mp ((List.forall_iff_forall_mem.mp h) ops hops)) op hop).1

/-- None of them writes a reference outside the class. -/
theorem keeps_of {P : Ref sig .tc → Prop} (opss : List (List (HloOp τ sig Val)))
    (h : opss.Forall fun ops => ops.Forall (WritesOne P)) {r : Ref sig .tc} (hr : ¬ P r) :
    ∀ ops ∈ opss, ∀ op ∈ ops, Proc.devRef (τ := τ) .tc r ∉ op.writes := fun ops hops op hop =>
  ((List.forall_iff_forall_mem.mp ((List.forall_iff_forall_mem.mp h) ops hops)) op hop).not_mem hr

/-- Walks a literal list of operations once, closing each operation's `WritesOne` by `rfl` (what it writes, what it
    allocates) and `decide` (the written reference's class). -/
macro "writes_one_each" : tactic =>
  `(tactic| repeat (first
      | exact ⟨rfl, _, by decide, rfl⟩
      | refine And.intro ⟨rfl, _, by decide, rfl⟩ ?_
      | exact True.intro))

end Cert.LibTailOps
-- ==== Proof.Carry.lean ====
/-
  What the stretches of host operations and the launches leave alone.

  The program's buffers are numbered in the order its operations define them.  Each stretch of host operations
  between two launches writes only buffers defined in that stretch, so a buffer defined earlier keeps its contents
  through it; a launch changes only its own result array.  These are the steps by which a value computed early
  (the edge lists, the per-node factor, an argument) is still there when a later operation reads it.
-/
import proofs.«144625_j11390253269721_1_alg».proof.Proof.Gen.KernelIdeal.Frame
import proofs.«144625_j11390253269721_1_alg».proof.Proof.LibTailOps

set_option maxRecDepth 16384

noncomputable section

namespace Cert.KernelIdeal.Carry

open Cert.KernelIdeal Cert.KernelIdeal.Gen Cert.LibTailOps
open Idealize.ShloMosaic Idealize.ShloMosaic.TcCoe Idealize.ShloMosaic.StableHlo Idealize.SL.Sem

variable {F : FTy → Type} [FloatOps F]

/-- The buffer is defined at position n or later. -/
abbrev Late (n : Nat) (r : Ref sig .tc) : Prop := n ≤ r.idx.val

/-- Each stretch writes only buffers of its own. -/
theorem ops0_writes : (hostOps0 : List (HloOp τ sig (Elt F))).Forall (WritesOne (Late 8)) := by writes_one_each
theorem ops1_writes : (hostOps1 : List (HloOp τ sig (Elt F))).Forall (WritesOne (Late 26)) := by writes_one_each
theorem ops3_writes : (hostOps3 : List (HloOp τ sig (Elt F))).Forall (WritesOne (Late 65)) := by writes_one_each
theorem ops5_writes : (hostOps5 : List (HloOp τ sig (Elt F))).Forall (WritesOne (Late 104)) := by writes_one_each

variable (m : (ℓ : Loc nD τ sig) → Buf (Elt F) ℓ) (ρ : Dev nD → PrngReg) (c : Dev nD)

theorem k1 (b : Ref sig .tc) (h : ¬ Late 8 b) : W1 m ρ c (Proc.devRef .tc b) = W0 m ρ c (Proc.devRef .tc b) :=
  after_keeps hostOps0 (W0 m ρ c) ops0_writes h
theorem k2 (b : Ref sig .tc) (h : ∀ w, Pipeline.arrRef spec0 w ≠ b) : W2 m ρ c (Proc.devRef .tc b) = W1 m ρ c (Proc.devRef .tc b) :=
  W2_of_ne m ρ c b h
theorem k3 (b : Ref sig .tc) (h : ¬ Late 26 b) : W3 m ρ c (Proc.devRef .tc b) = W2 m ρ c (Proc.devRef .tc b) :=
  after_keeps hostOps1 (W2 m ρ c) ops1_writes h
theorem k4 (b : Ref sig .tc) (h : ∀ w, Pipeline.arrRef spec1 w ≠ b) : W4 m ρ c (Proc.devRef .tc b) = W3 m ρ c (Proc.devRef .tc b) :=
  W4_of_ne m ρ c b h
theorem k5 (b : Ref sig .tc) (h : ∀ w, Pipeline.arrRef spec2 w ≠ b) : W5 m ρ c (Proc.devRef .tc b) = W4 m ρ c (Proc.devRef .tc b) :=
  W5_of_ne m ρ c b h
theorem k6 (b : Ref sig .tc) (h : ¬ Late 65 b) : W6 m ρ c (Proc.devRef .tc b) = W5 m ρ c (Proc.devRef .tc b) :=
  after_keeps hostOps3 (W5 m ρ c) ops3_writes h
theorem k7 (b : Ref sig .tc) (h : ∀ w, Pipeline.arrRef spec3 w ≠ b) : W7 m ρ c (Proc.devRef .tc b) = W6 m ρ c (Proc.devRef .tc b) :=
  W7_of_ne m ρ c b h
theorem k8 (b : Ref sig .tc) (h : ∀ w, Pipeline.arrRef spec4 w ≠ b) : W8 m ρ c (Proc.devRef .tc b) = W7 m ρ c (Proc.devRef .tc b) :=
  W8_of_ne m ρ c b h
theorem k9 (b : Ref sig .tc) (h : ¬ Late 104 b) : W9 m ρ c (Proc.devRef .tc b) = W8 m ρ c (Proc.devRef .tc b) :=
  after_keeps hostOps5 (W8 m ρ c) ops5_writes h

end Cert.KernelIdeal.Carry

end
-- ==== Proof.LibDense.lean ====
/-
  Dense layers read as functions of rows, at the ideal values.

  A dense layer of an MLP takes an [A, K] matrix of rows, a [K, N] weight matrix and an [N] bias to the [A, N]
  matrix whose entry (r, n) is  sum_k x(r, k) * w(k, n) + b(n).  Entry (r, n) depends on row r of x only, so the
  layer applied to a block of rows is the block of the layer applied to all rows; that is what lets a kernel
  that walks over row blocks be compared with a reference that multiplies whole matrices.

  Two spellings of the layer are read to this one function: the kernel's (the operands narrowed to bf16, which
  changes nothing at the ideal values; a matrix product accumulated into a zero splat; the bias cast to one row
  and broadcast down the rows) and the host's (a dot_general; the bias broadcast to one row, then down the rows).
  Likewise the tanh form of gelu,  x * (1/2 * (1 + tanh (c1 * (x + c0 * x^3)))),  is read pointwise in the
  kernel's spelling (x^3 as x * (x * x), splatted scalars) and the host's (x^3 as (x * x) * x, broadcast
  constants); the two cubes agree because multiplication of extended reals is commutative.  All of it is generic in the extents.
-/
import Idealize.ShloMosaic.Lib.KernelVsHost
import Idealize.ShloMosaic.Lib.ValueIdx
import Idealize.ShloMosaic.Lib.Pipeline.Value
import Idealize.ShloMosaic.PureOps.Ideal.Laws

noncomputable section

open scoped BigOperators

namespace Cert.LibDense

open Idealize.ShloMosaic Idealize.ShloMosaic.ValueIdx

/-! ## The contraction of a plain matrix product as a sum over the shared axis -/

/-- For the plain dimension numbers (rows x contraction times contraction x columns) the contraction index is
    its one coordinate, and the operand indices at output (r, n) and contraction k are (r, k) and (k, n). -/
theorem plain_sum (A K N : Nat) (l : (⟨2, ![A, K]⟩ : Shape).Idx → EReal) (r : (⟨2, ![K, N]⟩ : Shape).Idx → EReal)
    (j : (⟨2, ![A, N]⟩ : Shape).Idx) :
    ∑ k : (DotDims.plain A K N).contr.Idx, l ((DotDims.plain A K N).lhsIdx j k) * r ((DotDims.plain A K N).rhsIdx j k)
      = ∑ k : Fin K, l (ix2 (j 0 : Fin A) k) * r (ix2 k (j 1 : Fin N)) := by
  rw [← Equiv.sum_comp (contrEquiv1 (DotDims.plain A K N) K rfl rfl).symm]
  refine Finset.sum_congr rfl fun k _ => ?_
  have hk := contrEquiv1_symm_val (DotDims.plain A K N) K rfl rfl k
  have el : (DotDims.plain A K N).lhsIdx j ((contrEquiv1 (DotDims.plain A K N) K rfl rfl).symm k) = ix2 (j 0 : Fin A) k := by
    funext a
    match a with
    | ⟨0, _⟩ => rfl
    | ⟨1, _⟩ => exact Fin.ext hk
  have er : (DotDims.plain A K N).rhsIdx j ((contrEquiv1 (DotDims.plain A K N) K rfl rfl).symm k) = ix2 k (j 1 : Fin N) := by
    funext a
    match a with
    | ⟨0, _⟩ => exact Fin.ext hk
    | ⟨1, _⟩ => rfl
  exact congrArg₂ (· * ·) (congrArg l el) (congrArg r er)

/-! ## The bias laid along every row -/

/-- The kernel's spelling: the bias cast to one row and broadcast down the rows reads the bias at the column. -/
theorem bias_rows_kernel {A N : Nat} {α : Type} (b : (⟨1, ![N]⟩ : Shape).Idx → α)
    (h1 : (⟨1, ![N]⟩ : Shape).ShapeCasts ⟨2, ![1, N]⟩) (hb : (⟨2, ![1, N]⟩ : Shape).Broadcasts ⟨2, ![A, N]⟩)
    (i : (⟨2, ![A, N]⟩ : Shape).Idx) :
    broadcastTo ⟨2, ![A, N]⟩ (shapeCast ⟨2, ![1, N]⟩ b h1) hb i = b (ix1 (i 1 : Fin N)) := by
  have e1 := broadcastTo_apply (shapeCast ⟨2, ![1, N]⟩ b h1) hb i (ix2 (0 : Fin 1) (i 1 : Fin N)) (by
    intro a
    match a with
    | ⟨0, _⟩ => rfl
    | ⟨1, _⟩ =>
      show (i 1).val = if N = 1 then 0 else (i 1).val
      split
      · have := (i 1).isLt; have e : (i 1).val < N := this; omega
      · rfl)
  have e2 := shapeCast_apply b h1 (ix2 (0 : Fin 1) (i 1 : Fin N)) (ix1 (i 1 : Fin N)) (by
    rw [Shape.rowMajor_val_two, Shape.rowMajor_val_one]; show (i 1).val = 0 * N + (i 1).val; omega)
  exact e1.trans e2

/-- The host's spelling: the bias broadcast to one row along axis 1, then down the rows, reads the bias at the column. -/
theorem bias_rows_host_ix {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1]) (p : Fin A) (q : Fin N) :
    broadcastInDim ⟨2, ![A, N]⟩ ![0, 1] hbc (broadcastInDim ⟨2, ![1, N]⟩ ![1] hd b) (ix2 p q) = b (ix1 q) := by
  rw [broadcastInDim_oneRow_apply hbc _ p q]
  refine broadcastInDim_apply ![1] hd b (ix2 (0 : Fin 1) q) (ix1 q) ?_
  intro a
  match a with
  | ⟨0, _⟩ =>
    show q.val = if N = 1 then 0 else q.val
    split
    · have := q.isLt; omega
    · rfl

/-- The same at any index. -/
theorem bias_rows_host {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1])
    (i : (⟨2, ![A, N]⟩ : Shape).Idx) :
    broadcastInDim ⟨2, ![A, N]⟩ ![0, 1] hbc (broadcastInDim ⟨2, ![1, N]⟩ ![1] hd b) i = b (ix1 (i 1 : Fin N)) := by
  obtain ⟨p, q, rfl⟩ : ∃ (p : Fin A) (q : Fin N), i = ix2 p q := ⟨i 0, i 1, eq_ix2 i⟩
  exact bias_rows_host_ix b hd hbc p q

/-! ## The dense layer -/

/-- The dense layer on rows: entry (r, n) is the sum over k of x(r, k) * w(k, n), plus b(n). -/
def dense (A K N : Nat) (x : (⟨2, ![A, K]⟩ : Shape).Idx → EReal) (w : (⟨2, ![K, N]⟩ : Shape).Idx → EReal)
    (b : (⟨1, ![N]⟩ : Shape).Idx → EReal) : (⟨2, ![A, N]⟩ : Shape).Idx → EReal :=
  fun j => (∑ k : Fin K, x (ix2 (j 0 : Fin A) k) * w (ix2 k (j 1 : Fin N))) + b (ix1 (j 1 : Fin N))

/-- The kernel's layer (bf16 operands, zero accumulator, bias cast and broadcast) is the dense layer. -/
theorem dense_kernel {A K N : Nat} (x : FVec Ideal ⟨2, ![A, K]⟩ .f32) (w : FVec Ideal ⟨2, ![K, N]⟩ .f32)
    (b : FVec Ideal ⟨1, ![N]⟩ .f32) (hlt : FTy.bits .bf16 < FTy.bits .f32)
    (h1 : (⟨1, ![N]⟩ : Shape).ShapeCasts ⟨2, ![1, N]⟩) (hb : (⟨2, ![1, N]⟩ : Shape).Broadcasts ⟨2, ![A, N]⟩) :
    addf (matmul (DotDims.plain A K N) none (truncf .bf16 x hlt) (truncf .bf16 w hlt) (constant ⟨2, ![A, N]⟩ .f32 0x00000000#32))
      (broadcastTo ⟨2, ![A, N]⟩ (shapeCast ⟨2, ![1, N]⟩ b h1) hb) = dense A K N x w b := by
  funext j
  rw [addf_apply, bias_rows_kernel b h1 hb j]
  refine congrArg (· + b (ix1 (j 1 : Fin N))) ?_
  refine (Ideal.matmul_constant_zero_apply (DotDims.plain A K N) none (truncf .bf16 x hlt) (truncf .bf16 w hlt) j).trans ?_
  exact plain_sum A K N x w j

/-- The host's layer (dot_general, bias broadcast twice) is the dense layer. -/
theorem dense_host {A K N : Nat} (x : FVec Ideal ⟨2, ![A, K]⟩ .f32) (w : FVec Ideal ⟨2, ![K, N]⟩ .f32)
    (b : FVec Ideal ⟨1, ![N]⟩ .f32)
    (hd : (⟨1, ![N]⟩ : Shape).BroadcastsInDim ⟨2, ![1, N]⟩ ![1])
    (hbc : (⟨2, ![1, N]⟩ : Shape).BroadcastsInDim ⟨2, ![A, N]⟩ ![0, 1]) :
    addf (Host.dotGeneral (DotDims.plain A K N) none x w)
      (broadcastInDim ⟨2, ![A, N]⟩ ![0, 1] hbc (broadcastInDim ⟨2, ![1, N]⟩ ![1] hd b)) = dense A K N x w b := by
  funext j
  rw [addf_apply, bias_rows_host b hd hbc j]
  refine congrArg (· + b (ix1 (j 1 : Fin N))) ?_
  refine (Ideal.dotGeneral_apply (DotDims.plain A K N) none _ x w j).trans ?_
  exact plain_sum A K N x w j

/-- Entry (p, q) of the layer depends on row p only: two matrices that agree on a row give the same entry there. -/
theorem dense_row {A A' K N : Nat} (x : (⟨2, ![A, K]⟩ : Shape).Idx → EReal) (x' : (⟨2, ![A', K]⟩ : Shape).Idx → EReal)
    (w : (⟨2, ![K, N]⟩ : Shape).Idx → EReal) (b : (⟨1, ![N]⟩ : Shape).Idx → EReal) (p : Fin A) (r : Fin A') (q : Fin N)
    (h : ∀ k : Fin K, x (ix2 p k) = x' (ix2 r k)) :
    dense A K N x w b (ix2 p q) = dense A' K N x' w b (ix2 r q) := by
  show (∑ k : Fin K, x (ix2 p k) * w (ix2 k q)) + b (ix1 q) = (∑ k : Fin K, x' (ix2 r k) * w (ix2 k q)) + b (ix1 q)
  rw [Finset.sum_congr rfl fun k _ => by rw [h k]]

/-! ## gelu, tanh form -/

/-- gelu's tanh approximation on one extended real, the four f32 constants at their binary values. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- The kernel's spelling, pointwise: splatted scalars, the cube as x * (x * x). -/
theorem gelu_kernel {s : Shape} (v : FVec Ideal s .f32) :
    mulf v (mulf (broadcast s (Scalar.ofBits (F := Ideal) .f32 0x3F000000#32))
      (addf (broadcast s (Scalar.ofBits (F := Ideal) .f32 0x3F800000#32))
        (tanh (mulf (broadcast s (Scalar.ofBits (F := Ideal) .f32 0x3F4C422A#32))
          (addf v (mulf (broadcast s (Scalar.ofBits (F := Ideal) .f32 0x3D372713#32)) (mulf v (mulf v v))))))))
      = fun j => gelu (v j) := rfl

/-- The host's spelling, pointwise: broadcast constants, the cube as (x * x) * x. -/
theorem gelu_host {s : Shape} (v : FVec Ideal s .f32) (hS : (⟨0, ![]⟩ : Shape).BroadcastsInDim s (![] : Fin 0 → Fin s.rank)) :
    mulf v (mulf (broadcastInDim s ![] hS (constant (F := Ideal) ⟨0, ![]⟩ .f32 0x3F000000#32))
      (addf (broadcastInDim s ![] hS (constant (F := Ideal) ⟨0, ![]⟩ .f32 0x3F800000#32))
        (Host.tanh (mulf (broadcastInDim s ![] hS (constant (F := Ideal) ⟨0, ![]⟩ .f32 0x3F4C422A#32))
          (addf v (mulf (broadcastInDim s ![] hS (constant (F := Ideal) ⟨0, ![]⟩ .f32 0x3D372713#32)) (mulf (mulf v v) v)))))))
      = fun j => gelu (v j) := by
  funext j
  show v j * (Ideal.ofBits .f32 0x3F000000#32 * (Ideal.ofBits .f32 0x3F800000#32
    + Ideal.tanh (Ideal.ofBits .f32 0x3F4C422A#32 * (v j + Ideal.ofBits .f32 0x3D372713#32 * ((v j * v j) * v j))))) = gelu (v j)
  rw [mul_comm (v j * v j) (v j)]
  rfl

end Cert.LibDense

end
-- ==== Proof.LibLayout.lean ====
/-
  Layout operations of small shapes read at an index written by its coordinates: a vector viewed as a column, a column
  repeated along each row, and the row-major regrouping of an array's two leading axes into one axis and back.
  Each is the library's general reading of the operation (equal row-major positions for a cast, trailing coordinates
  for a broadcast) with the two positions worked out for the shapes at hand.
-/
import Idealize.ShloMosaic.Lib.Pipeline.Value
import Idealize.ShloMosaic.Lib.ValueIdx

namespace Cert.LibLayout

open Idealize.ShloMosaic Idealize.ShloMosaic.ValueIdx

variable {α : Type}

/-- An `[a]` array cast to the column `[a, 1]` reads, at `(i, u)`, the operand at `i`: position `i · 1 + 0` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[n0, n1, n2]` array with its two leading axes regrouped into one of extent `N` reads, at `(r, c)` with
    `r = s · n1 + b`, the operand at `(s, b, c)`: both sit at row-major position `(s · n1 + b) · n2 + c`. -/
theorem shapeCast_abc_dc_apply {n0 n1 n2 N : ℕ} (x : (⟨3, ![n0, n1, n2]⟩ : Shape).Idx → α)
    (h : (⟨3, ![n0, n1, n2]⟩ : Shape).ShapeCasts ⟨2, ![N, n2]⟩) (r : Fin N) (c : Fin n2) (s : Fin n0) (b : Fin n1)
    (hr : r.val = s.val * n1 + b.val) :
    shapeCast ⟨2, ![N, n2]⟩ x h (ix2 r c) = x (ix3 s b c) :=
  shapeCast_apply x h _ _ (by
    rw [Shape.rowMajor_val_three, Shape.rowMajor_val_two]
    show (s.val * n1 + b.val) * n2 + c.val = r.val * n2 + c.val
    rw [hr])

/-- The way back: an `[N, n2]` array with its leading axis split into `[n0, n1]` reads, at `(s, b, c)`, the operand at
    `(r, c)` for `r = s · n1 + b`. -/
theorem shapeCast_dc_abc_apply {n0 n1 n2 N : ℕ} (x : (⟨2, ![N, n2]⟩ : Shape).Idx → α)
    (h : (⟨2, ![N, n2]⟩ : Shape).ShapeCasts ⟨3, ![n0, n1, n2]⟩) (s : Fin n0) (b : Fin n1) (c : Fin n2) (r : Fin N)
    (hr : r.val = s.val * n1 + b.val) :
    shapeCast ⟨3, ![n0, n1, n2]⟩ x h (ix3 s b c) = x (ix2 r c) :=
  shapeCast_apply x h _ _ (by
    rw [Shape.rowMajor_val_three, Shape.rowMajor_val_two]
    show r.val * n2 + c.val = (s.val * n1 + b.val) * n2 + c.val
    rw [hr])

end Cert.LibLayout
-- ==== Proof.LibGcnLayer.lean ====
/-
  One graph-convolution layer, entry by entry, on the extended reals.

  A layer first multiplies every node's feature row by a weight matrix: entry (r, n) of the product is
  sum_k x(r, k) * w(k, n), a function of row r of x only.  It then adds, to the aggregated neighbour messages
  agg(r, n), the node's own row scaled by a per-node factor d(r), and a bias b(n):
  (agg(r, n) + d(r) * xw(r, n)) + b(n), followed on the hidden layers by a maximum with zero.  Entry (r, n)
  of that depends on entry (r, n) of agg and xw, on d(r) and on b(n) only.  Because of this a program that
  walks over blocks of rows computes the same array as one that works on whole matrices, and the two
  spellings met here (a matrix product accumulated into a zero splat on operands narrowed to bf16, against a
  dot_general; the factor as a column and the bias as a row, against both broadcast from vectors) read to
  the same functions.  Everything is generic in the extents.
-/
import proofs.«144625_j11390253269721_1_alg».proof.Proof.LibDense
import proofs.«144625_j11390253269721_1_alg».proof.Proof.LibLayout
import Idealize.ShloMosaic.Lib.ValueIdx
import Idealize.ShloMosaic.Lib.Pipeline.Value
import Idealize.ShloMosaic.PureOps.Ideal.Laws

noncomputable section

open scoped BigOperators

namespace Cert.Gcn

open Idealize.ShloMosaic Idealize.ShloMosaic.ValueIdx

/-! ## The product with the weights -/

/-- Entry (r, n) of x times w: the sum over k of x(r, k) * w(k, n). -/
def lin (A K N : Nat) (x : FVec Ideal ⟨2, ![A, K]⟩ .f32) (w : FVec Ideal ⟨2, ![K, N]⟩ .f32) : FVec Ideal ⟨2, ![A, N]⟩ .f32 :=
  fun j => ∑ k : Fin K, x (ix2 (j 0 : Fin A) k) * w (ix2 k (j 1 : Fin N))

/-- A matrix product of operands narrowed to bf16, accumulated into a zero splat, is that sum: narrowing is the
    identity on extended reals and the zero accumulator adds nothing. -/
theorem lin_of_matmul {A K N : Nat} (x : FVec Ideal ⟨2, ![A, K]⟩ .f32) (w : FVec Ideal ⟨2, ![K, N]⟩ .f32)
    (hlt : FTy.bits .bf16 < FTy.bits .f32) :
    matmul (DotDims.plain A K N) none (truncf .bf16 x hlt) (truncf .bf16 w hlt) (constant ⟨2, ![A, N]⟩ .f32 0x00000000#32)
      = lin A K N x w := by
  funext j
  exact (Ideal.matmul_constant_zero_apply (DotDims.plain A K N) none (truncf .bf16 x hlt) (truncf .bf16 w hlt) j).trans
    (Cert.LibDense.plain_sum A K N x w j)

/-- The host's dot_general with the plain dimension numbers is the same sum. -/
theorem lin_of_dotGeneral {A K N : Nat} (x : FVec Ideal ⟨2, ![A, K]⟩ .f32) (w : FVec Ideal ⟨2, ![K, N]⟩ .f32) :
    Host.dotGeneral (DotDims.plain A K N) none x w = lin A K N x w := by
  funext j
  exact (Ideal.dotGeneral_apply (DotDims.plain A K N) none _ x w j).trans (Cert.LibDense.plain_sum A K N x w j)

/-- Entry (p, q) of the product depends on row p of the left factor and on column q of the right one only. -/
theorem lin_entry {A A' K N : Nat} (x : FVec Ideal ⟨2, ![A, K]⟩ .f32) (x' : FVec Ideal ⟨2, ![A', K]⟩ .f32)
    (w w' : FVec Ideal ⟨2, ![K, N]⟩ .f32) (p : Fin A) (r : Fin A') (q : Fin N)
    (hx : ∀ k : Fin K, x (ix2 p k) = x' (ix2 r k)) (hw : ∀ k : Fin K, w (ix2 k q) = w' (ix2 k q)) :
    lin A K N x w (ix2 p q) = lin A' K N x' w' (ix2 r q) := by
  show (∑ k : Fin K, x (ix2 p k) * w (ix2 k q)) = ∑ k : Fin K, x' (ix2 r k) * w' (ix2 k q)
  exact Finset.sum_congr rfl fun k _ => by rw [hx k, hw k]

/-! ## Messages, self term and bias -/

/-- Entry (r, n) of a layer before its activation, the per-node factor given as a column and the bias as a row:
    (agg(r, n) + d(r, 0) * xw(r, n)) + b(0, n). -/
def comb (A N : Nat) (agg xw : FVec Ideal ⟨2, ![A, N]⟩ .f32) (dcol : FVec Ideal ⟨2, ![A, 1]⟩ .f32)
    (brow : FVec Ideal ⟨2, ![1, N]⟩ .f32) : FVec Ideal ⟨2, ![A, N]⟩ .f32 :=
  fun j => (agg j + dcol (ix2 (j 0 : Fin A) (0 : Fin 1)) * xw j) + brow (ix2 (0 : Fin 1) (j 1 : Fin N))

/-- The same followed by the maximum with zero. -/
def combRelu (A N : Nat) (agg xw : FVec Ideal ⟨2, ![A, N]⟩ .f32) (dcol : FVec Ideal ⟨2, ![A, 1]⟩ .f32)
    (brow : FVec Ideal ⟨2, ![1, N]⟩ .f32) : FVec Ideal ⟨2, ![A, N]⟩ .f32 :=
  fun j => max (comb A N agg xw dcol brow j) (Ideal.ofBits .f32 0x00000000#32)

/-- Entry (p, q) depends on entry (p, q) of the messages and of the product, on the factor of row p and on the
    bias of column q. -/
theorem comb_entry {A A' N : Nat} (agg xw : FVec Ideal ⟨2, ![A, N]⟩ .f32) (dcol : FVec Ideal ⟨2, ![A, 1]⟩ .f32)
    (brow brow' : FVec Ideal ⟨2, ![1, N]⟩ .f32) (agg' xw' : FVec Ideal ⟨2, ![A', N]⟩ .f32)
    (dcol' : FVec Ideal ⟨2, ![A', 1]⟩ .f32) (p : Fin A) (r : Fin A') (q : Fin N)
    (h1 : agg (ix2 p q) = agg' (ix2 r q)) (h2 : xw (ix2 p q) = xw' (ix2 r q))
    (h3 : dcol (ix2 p (0 : Fin 1)) = dcol' (ix2 r (0 : Fin 1))) (h4 : brow (ix2 (0 : Fin 1) q) = brow' (ix2 (0 : Fin 1) q)) :
    comb A N agg xw dcol brow (ix2 p q) = comb A' N agg' xw' dcol' brow' (ix2 r q) := by
  show (agg (ix2 p q) + dcol (ix2 p (0 : Fin 1)) * xw (ix2 p q)) + brow (ix2 (0 : Fin 1) q)
    = (agg' (ix2 r q) + dcol' (ix2 r (0 : Fin 1)) * xw' (ix2 r q)) + brow' (ix2 (0 : Fin 1) q)
  rw [h1, h2, h3, h4]

theorem combRelu_entry {A A' N : Nat} (agg xw : FVec Ideal ⟨2, ![A, N]⟩ .f32) (dcol : FVec Ideal ⟨2, ![A, 1]⟩ .f32)
    (brow brow' : FVec Ideal ⟨2, ![1, N]⟩ .f32) (agg' xw' : FVec Ideal ⟨2, ![A', N]⟩ .f32)
    (dcol' : FVec Ideal ⟨2, ![A', 1]⟩ .f32) (p : Fin A) (r : Fin A') (q : Fin N)
    (h1 : agg (ix2 p q) = agg' (ix2 r q)) (h2 : xw (ix2 p q) = xw' (ix2 r q))
    (h3 : dcol (ix2 p (0 : Fin 1)) = dcol' (ix2 r (0 : Fin 1))) (h4 : brow (ix2 (0 : Fin 1) q) = brow' (ix2 (0 : Fin 1) q)) :
    combRelu A N agg xw dcol brow (ix2 p q) = combRelu A' N agg' xw' dcol' brow' (ix2 r q) :=
  congrArg (max · (Ideal.ofBits .f32 0x00000000#32)) (comb_entry agg xw dcol brow brow' agg' xw' dcol' p r q h1 h2 h3 h4)

/-- A one-row array broadcast down the rows reads, at (p, q), the row's entry of column q. -/
theorem broadcastTo_1n_an_apply {A N : Nat} {α : Type} (v : (⟨2, ![1, N]⟩ : Shape).Idx → α)
    (h : (⟨2, ![1, N]⟩ : Shape).Broadcasts ⟨2, ![A, N]⟩) (p : Fin A) (q : Fin N) :
    broadcastTo ⟨2, ![A, N]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if N = 1 then 0 else q.val
    split
    · have := q.isLt; omega
    · rfl

/-- The hidden layers' body: identity casts of the loaded blocks, the factor's column broadcast along the rows, the
    bias row broadcast down them, a maximum with a splatted zero. -/
theorem combRelu_of_body {A N : Nat} (agg xw : FVec Ideal ⟨2, ![A, N]⟩ .f32) (dcol : FVec Ideal ⟨2, ![A, 1]⟩ .f32)
    (brow : FVec Ideal ⟨2, ![1, N]⟩ .f32)
    (hAN : (⟨2, ![A, N]⟩ : Shape).ShapeCasts ⟨2, ![A, N]⟩) (hA1 : (⟨2, ![A, 1]⟩ : Shape).ShapeCasts ⟨2, ![A, 1]⟩)
    (h1N : (⟨2, ![1, N]⟩ : Shape).ShapeCasts ⟨2, ![1, N]⟩)
    (hbd : (⟨2, ![A, 1]⟩ : Shape).Broadcasts ⟨2, ![A, N]⟩) (hbb : (⟨2, ![1, N]⟩ : Shape).Broadcasts ⟨2, ![A, N]⟩) :
    maximumf (addf (addf (shapeCast ⟨2, ![A, N]⟩ agg hAN)
        (mulf (broadcastTo ⟨2, ![A, N]⟩ (shapeCast ⟨2, ![A, 1]⟩ dcol hA1) hbd) (shapeCast ⟨2, ![A, N]⟩ xw hAN)))
        (broadcastTo ⟨2, ![A, N]⟩ (shapeCast ⟨2, ![1, N]⟩ brow h1N) hbb))
      (broadcast ⟨2, ![A, N]⟩ (Scalar.ofBits (F := Ideal) .f32 0x00000000#32))
      = combRelu A N agg xw dcol brow := by
  funext j
  obtain ⟨p, q, rfl⟩ : ∃ (p : Fin A) (q : Fin N), j = ix2 p q := ⟨j 0, j 1, eq_ix2 j⟩
  rw [shapeCast_self, shapeCast_self, shapeCast_self, shapeCast_self]
  show max ((agg (ix2 p q) + broadcastTo ⟨2, ![A, N]⟩ dcol hbd (ix2 p q) * xw (ix2 p q))
      + broadcastTo ⟨2, ![A, N]⟩ brow hbb (ix2 p q)) (Ideal.ofBits .f32 0x00000000#32) = _
  rw [Cert.LibLayout.broadcastTo_a1_ab_apply dcol hbd p q, broadcastTo_1n_an_apply brow hbb p q]
  rfl

/-- The last layer's body (one output column, no activation): the factor's column is already of the output's shape. -/
theorem comb_of_body {A : Nat} (agg xw dcol : FVec Ideal ⟨2, ![A, 1]⟩ .f32) (brow : FVec Ideal ⟨2, ![1, 1]⟩ .f32)
    (hA1 : (⟨2, ![A, 1]⟩ : Shape).ShapeCasts ⟨2, ![A, 1]⟩) (h11 : (⟨2, ![1, 1]⟩ : Shape).ShapeCasts ⟨2, ![1, 1]⟩)
    (hbb : (⟨2, ![1, 1]⟩ : Shape).Broadcasts ⟨2, ![A, 1]⟩) :
    addf (addf (shapeCast ⟨2, ![A, 1]⟩ agg hA1) (mulf (shapeCast ⟨2, ![A, 1]⟩ dcol hA1) (shapeCast ⟨2, ![A, 1]⟩ xw hA1)))
        (broadcastTo ⟨2, ![A, 1]⟩ (shapeCast ⟨2, ![1, 1]⟩ brow h11) hbb)
      = comb A 1 agg xw dcol brow := by
  funext j
  obtain ⟨p, q, rfl⟩ : ∃ (p : Fin A) (q : Fin 1), j = ix2 p q := ⟨j 0, j 1, eq_ix2 j⟩
  rw [shapeCast_self, shapeCast_self, shapeCast_self, shapeCast_self]
  show (agg (ix2 p q) + dcol (ix2 p q) * xw (ix2 p q)) + broadcastTo ⟨2, ![A, 1]⟩ brow hbb (ix2 p q) = _
  rw [broadcastTo_1n_an_apply brow hbb p q]
  have hq : q = (0 : Fin 1) := Subsingleton.elim _ _
  subst hq
  rfl

/-! ## The factor and the bias given as vectors -/

/-- A vector cast to one row reads, at (0, q), the vector at q. -/
theorem shapeCast_n_1n_apply {N : Nat} {α : Type} (b : (⟨1, ![N]⟩ : Shape).Idx → α)
    (h : (⟨1, ![N]⟩ : Shape).ShapeCasts ⟨2, ![1, N]⟩) (q : Fin N) :
    shapeCast ⟨2, ![1, N]⟩ b h (ix2 (0 : Fin 1) q) = b (ix1 q) :=
  shapeCast_apply b h _ _ (by
    rw [Shape.rowMajor_val_two, Shape.rowMajor_val_one]; show q.val = 0 * N + q.val; omega)

/-- With the factor a vector cast to a column and the bias a vector cast to a row, entry (r, q) reads the factor at r
    and the bias at q. -/
theorem comb_of_casts {A N : Nat} (agg xw : FVec Ideal ⟨2, ![A, N]⟩ .f32) (d : FVec Ideal ⟨1, ![A]⟩ .f32)
    (b : FVec Ideal ⟨1, ![N]⟩ .f32) (hd : (⟨1, ![A]⟩ : Shape).ShapeCasts ⟨2, ![A, 1]⟩)
    (hb : (⟨1, ![N]⟩ : Shape).ShapeCasts ⟨2, ![1, N]⟩) (r : Fin A) (q : Fin N) :
    comb A N agg xw (shapeCast ⟨2, ![A, 1]⟩ d hd) (shapeCast ⟨2, ![1, N]⟩ b hb) (ix2 r q)
      = (agg (ix2 r q) + d (ix1 r) * xw (ix2 r q)) + b (ix1 q) := by
  show (agg (ix2 r q) + shapeCast ⟨2, ![A, 1]⟩ d hd (ix2 r (0 : Fin 1)) * xw (ix2 r q))
    + shapeCast ⟨2, ![1, N]⟩ b hb (ix2 (0 : Fin 1) q) = _
  rw [Cert.LibLayout.shapeCast_a_a1_apply d hd r (0 : Fin 1), shapeCast_n_1n_apply b hb q]

theorem combRelu_of_casts {A N : Nat} (agg xw : FVec Ideal ⟨2, ![A, N]⟩ .f32) (d : FVec Ideal ⟨1, ![A]⟩ .f32)
    (b : FVec Ideal ⟨1, ![N]⟩ .f32) (hd : (⟨1, ![A]⟩ : Shape).ShapeCasts ⟨2, ![A, 1]⟩)
    (hb : (⟨1, ![N]⟩ : Shape).ShapeCasts ⟨2, ![1, N]⟩) (r : Fin A) (q : Fin N) :
    combRelu A N agg xw (shapeCast ⟨2, ![A, 1]⟩ d hd) (shapeCast ⟨2, ![1, N]⟩ b hb) (ix2 r q)
      = max ((agg (ix2 r q) + d (ix1 r) * xw (ix2 r q)) + b (ix1 q)) (Ideal.ofBits .f32 0x00000000#32) :=
  congrArg (max · (Ideal.ofBits .f32 0x00000000#32)) (comb_of_casts agg xw d b hd hb r q)

end Cert.Gcn

end
-- ==== Proof.RefLayers.lean ====
/-
  The reference, layer by layer.

  The reference computes each layer on whole matrices: a dot_general with the layer's weights, the aggregated
  messages plus the product scaled by the per-node factor (a vector broadcast to a column and then along the rows)
  plus the bias (a vector broadcast to a row and then down the rows), and on the hidden layers a maximum with zero.
  Read at an entry, each of these is the layer function of the earlier results, with the factor and the bias read
  as vectors.
-/
import proofs.«144625_j11390253269721_1_alg».proof.Proof.Gen.ReferenceIdeal.Read
import proofs.«144625_j11390253269721_1_alg».proof.Proof.LibGcnLayer

noncomputable section

namespace Cert.ReferenceIdeal.Layers

open Cert.ReferenceIdeal Cert.ReferenceIdeal.Read Cert.Gcn
open Idealize.ShloMosaic Idealize.ShloMosaic.ValueIdx

/-- The first layer's product with the weights. -/
theorem prod1 (x0 : FVec Ideal S250000x2 .f32) (x2 : FVec Ideal S2x16 .f32) :
    val_main_v4 (F := Ideal) x0 x2 = lin 250000 2 16 x0 x2 := by
  unfold val_main_v4
  exact lin_of_dotGeneral x0 x2

/-- The first layer: messages, self term, bias, maximum with zero. -/
theorem layer1 (x0 : FVec Ideal S250000x2 .f32) (x1 : IVec S2x4000000 32) (x2 : FVec Ideal S2x16 .f32) (x3 : FVec Ideal S16 .f32)
    (hd : S250000.ShapeCasts S250000x1) (hb : S16.ShapeCasts S1x16) :
    val_main_v49 (F := Ideal) x0 x1 x2 x3
      = combRelu 250000 16 (val_main_v40 (F := Ideal) x0 x1 x2) (val_main_v4 (F := Ideal) x0 x2)
          (shapeCast S250000x1 (val_main_v41 (F := Ideal) x1) hd) (shapeCast S1x16 x3 hb) := by
  funext i
  obtain ⟨r, q, rfl⟩ : ∃ (r : Fin 250000) (q : Fin 16), i = ix2 r q := ⟨i 0, i 1, eq_ix2 i⟩
  rw [val_main_v49_apply, val_main_v48_apply, val_main_v45_apply, val_main_v44_apply, val_main_v43_apply,
    val_main_v42_apply, val_main_v47_apply, val_main_v46_apply, val_main_call0_v0_apply, val_main_call0_cst_apply]
  have e1 : idx_main_v42 (idx_main_v43 (ix2 r q)) = ix1 r := funext fun a => match a with | ⟨0, _⟩ => rfl
  have e2 : idx_main_v46 (idx_main_v47 (ix2 r q)) = ix1 q := funext fun a => match a with | ⟨0, _⟩ => rfl
  rw [e1, e2, combRelu_of_casts]
  rfl

/-- The second layer's product with the weights. -/
theorem prod2 (x0 : FVec Ideal S250000x2 .f32) (x1 : IVec S2x4000000 32) (x2 : FVec Ideal S2x16 .f32) (x3 : FVec Ideal S16 .f32)
    (x4 : FVec Ideal S16x16 .f32) :
    val_main_v50 (F := Ideal) x0 x1 x2 x3 x4 = lin 250000 16 16 (val_main_v49 (F := Ideal) x0 x1 x2 x3) x4 := by
  unfold val_main_v50
  exact lin_of_dotGeneral _ x4

/-- The second layer: messages, self term, bias, maximum with zero. -/
theorem layer2 (x0 : FVec Ideal S250000x2 .f32) (x1 : IVec S2x4000000 32) (x2 : FVec Ideal S2x16 .f32) (x3 : FVec Ideal S16 .f32)
    (x4 : FVec Ideal S16x16 .f32) (x5 : FVec Ideal S16 .f32)
    (hd : S250000.ShapeCasts S250000x1) (hb : S16.ShapeCasts S1x16) :
    val_main_v95 (F := Ideal) x0 x1 x2 x3 x4 x5
      = combRelu 250000 16 (val_main_v86 (F := Ideal) x0 x1 x2 x3 x4) (val_main_v50 (F := Ideal) x0 x1 x2 x3 x4)
          (shapeCast S250000x1 (val_main_v87 (F := Ideal) x1) hd) (shapeCast S1x16 x5 hb) := by
  funext i
  obtain ⟨r, q, rfl⟩ : ∃ (r : Fin 250000) (q : Fin 16), i = ix2 r q := ⟨i 0, i 1, eq_ix2 i⟩
  rw [val_main_v95_apply, val_main_v94_apply, val_main_v91_apply, val_main_v90_apply, val_main_v89_apply,
    val_main_v88_apply, val_main_v93_apply, val_main_v92_apply, val_main_call1_v0_apply, val_main_call1_cst_apply]
  have e1 : idx_main_v88 (idx_main_v89 (ix2 r q)) = ix1 r := funext fun a => match a with | ⟨0, _⟩ => rfl
  have e2 : idx_main_v92 (idx_main_v93 (ix2 r q)) = ix1 q := funext fun a => match a with | ⟨0, _⟩ => rfl
  rw [e1, e2, combRelu_of_casts]
  rfl

/-- The last layer's product with the weights. -/
theorem prod3 (x0 : FVec Ideal S250000x2 .f32) (x1 : IVec S2x4000000 32) (x2 : FVec Ideal S2x16 .f32) (x3 : FVec Ideal S16 .f32)
    (x4 : FVec Ideal S16x16 .f32) (x5 : FVec Ideal S16 .f32) (x6 : FVec Ideal S16x1 .f32) :
    val_main_v96 (F := Ideal) x0 x1 x2 x3 x4 x5 x6 = lin 250000 16 1 (val_main_v95 (F := Ideal) x0 x1 x2 x3 x4 x5) x6 := by
  unfold val_main_v96
  exact lin_of_dotGeneral _ x6

/-- The last layer: messages, self term, bias; one output column, no activation. -/
theorem layer3 (x0 : FVec Ideal S250000x2 .f32) (x1 : IVec S2x4000000 32) (x2 : FVec Ideal S2x16 .f32) (x3 : FVec Ideal S16 .f32)
    (x4 : FVec Ideal S16x16 .f32) (x5 : FVec Ideal S16 .f32) (x6 : FVec Ideal S16x1 .f32) (x7 : FVec Ideal S1 .f32)
    (hd : S250000.ShapeCasts S250000x1) (hb : S1.ShapeCasts S1x1) :
    val_main_v138 (F := Ideal) x0 x1 x2 x3 x4 x5 x6 x7
      = comb 250000 1 (val_main_v131 (F := Ideal) x0 x1 x2 x3 x4 x5 x6) (val_main_v96 (F := Ideal) x0 x1 x2 x3 x4 x5 x6)
          (shapeCast S250000x1 (val_main_v132 (F := Ideal) x1) hd) (shapeCast S1x1 x7 hb) := by
  funext i
  obtain ⟨r, q, rfl⟩ : ∃ (r : Fin 250000) (q : Fin 1), i = ix2 r q := ⟨i 0, i 1, eq_ix2 i⟩
  have hq : q = (0 : Fin 1) := Subsingleton.elim _ _
  subst hq
  rw [val_main_v138_apply, val_main_v135_apply, val_main_v134_apply, val_main_v133_apply, val_main_v137_apply,
    val_main_v136_apply]
  have e1 : idx_main_v133 (ix2 r (0 : Fin 1)) = ix1 r := funext fun a => match a with | ⟨0, _⟩ => rfl
  have e2 : idx_main_v136 (idx_main_v137 (ix2 r (0 : Fin 1))) = ix1 (0 : Fin 1) := funext fun a => match a with | ⟨0, _⟩ => rfl
  rw [e1, e2, comb_of_casts]
  rfl

/-- The per-node factor is the same function of the graph in every layer: the reference recomputes the degrees, their
    inverse square roots and the squares of those from the same edge list by the same operations. -/
theorem factor2 (x1 : IVec S2x4000000 32) : val_main_v87 (F := Ideal) x1 = val_main_v41 (F := Ideal) x1 := rfl
theorem factor3 (x1 : IVec S2x4000000 32) : val_main_v132 (F := Ideal) x1 = val_main_v41 (F := Ideal) x1 := rfl
theorem invsqrt2 (x1 : IVec S2x4000000 32) : val_main_v58 (F := Ideal) x1 = val_main_v12 (F := Ideal) x1 := rfl
theorem invsqrt3 (x1 : IVec S2x4000000 32) : val_main_v104 (F := Ideal) x1 = val_main_v12 (F := Ideal) x1 := rfl

end Cert.ReferenceIdeal.Layers

end
-- ==== Proof.Rows.lean ====
/-
  The rows of a block: the launches walk over 50 blocks of 5000 consecutive rows of arrays of 250000 rows.
-/
import Idealize.ShloMosaic.Lib.ValueIdx

namespace Cert.Gcn

/-- Row p of block t among all 250000 rows, for the 50 blocks of 5000 consecutive rows. -/
def row (t : Nat) (ht : t < 50) (p : Fin 5000) : Fin 250000 :=
  ⟨t * 5000 + p.val, by have hp := p.isLt; omega⟩

theorem row_val (t : Nat) (ht : t < 50) (p : Fin 5000) : (row t ht p).val = t * 5000 + p.val := rfl

end Cert.Gcn
-- ==== Proof.Blocks0.lean ====
/-
  The first launch: the product of the node features with the first layer's weights, block by block.

  The launch walks over 50 blocks of 5000 consecutive rows.  At block t it loads rows 5000 t … 5000 t + 4999 of
  the features and the whole weight matrix, and writes the block's product to the same rows of its result.  Entry
  (r, n) of the product of all rows depends on row r only, so what block t writes is block t of the product of
  all rows, and the blocks cover every row: the result array ends as the whole product.
-/
import proofs.«144625_j11390253269721_1_alg».proof.Proof.Gen.KernelIdeal.Frame
import proofs.«144625_j11390253269721_1_alg».proof.Proof.LibGcnLayer
import proofs.«144625_j11390253269721_1_alg».proof.Proof.Rows

set_option maxRecDepth 16384

noncomputable section

namespace Cert.KernelIdeal.Blocks0

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The body's arithmetic is the product of the loaded blocks. -/
theorem body_eq (x0 : Vec Ideal S5000x2 .f32) (x1 : Vec Ideal S2x16 .f32) : k0_pay1 x0 x1 = lin 5000 2 16 x0 x1 :=
  lin_of_matmul x0 x1 bitsLt_bf16_f32

/-- The index maps over the grid: the left factor's and the result's block of point t is block t of the rows, the
    weights' block is the whole matrix. -/
theorem block_of_point : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left factor's block at point t holds rows 5000 t + p of it. -/
theorem read_x (c : Dev nD) (t : Fin cfg0.N) (p : Fin 5000) (k : Fin 2) :
    iblk0 V c 0 t (ix2 p k) = V c main_arg0 (ix2 (row t.val t.isLt p) k) := by
  obtain ⟨e0, e1, -⟩ := block_of_point t
  show V c main_arg0 (((cfg0.win 0).blk t).view.emb (ix2 p k)) = V c main_arg0 (ix2 (row t.val t.isLt p) k)
  refine congrArg (V c main_arg0) (funext fun a => Fin.ext ?_)
  match a with
  | ⟨0, _⟩ => show win0_0.index t (0 : Fin 2) * 5000 + 1 * p.val = t.val * 5000 + p.val; omega
  | ⟨1, _⟩ => show win0_0.index t (1 : Fin 2) * 2 + 1 * k.val = k.val; omega

/-- The weights' block at every point is the whole matrix. -/
theorem read_w (c : Dev nD) (t : Fin cfg0.N) (k : Fin 2) (q : Fin 16) :
    iblk0 V c 1 t (ix2 k q) = V c main_arg2 (ix2 k q) := by
  obtain ⟨-, -, e2, e3, -⟩ := block_of_point t
  show V c main_arg2 (((cfg0.win 1).blk t).view.emb (ix2 k q)) = V c main_arg2 (ix2 k q)
  refine congrArg (V c main_arg2) (funext fun a => Fin.ext ?_)
  match a with
  | ⟨0, _⟩ => show win0_1.index t (0 : Fin 2) * 2 + 1 * k.val = k.val; omega
  | ⟨1, _⟩ => show win0_1.index t (1 : Fin 2) * 16 + 1 * q.val = q.val; omega

/-- Entry (p, q) of the result's block at point t sits at row 5000 t + p, column q of the result. -/
theorem emb_out (t : Fin cfg0.N) (p : Fin 5000) (q : Fin 16) :
    ((cfg0.win 2).blk t).view.emb (ix2 p q) = ix2 (row t.val t.isLt p) q := by
  obtain ⟨-, -, -, -, e4, e5⟩ := block_of_point t
  refine funext fun a => Fin.ext ?_
  match a with
  | ⟨0, _⟩ => show win0_2.index t (0 : Fin 2) * 5000 + 1 * p.val = t.val * 5000 + p.val; omega
  | ⟨1, _⟩ => show win0_2.index t (1 : Fin 2) * 16 + 1 * q.val = q.val; omega

/-- What point t writes back is block t of the product of all rows. -/
theorem written_block (c : Dev nD) (t : Fin cfg0.N) :
    (dat0 V c).flushed 2 t = ((cfg0.win 2).blk t).view.read (Elt Ideal) (lin 250000 2 16 (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x2) zero_offsets, View.ld_unit_zero (S := S2x16) zero_offsets]
  rw [body_eq]
  funext y
  obtain ⟨p, q, rfl⟩ : ∃ (p : Fin 5000) (q : Fin 16), y = ix2 p q := ⟨y 0, y 1, eq_ix2 y⟩
  show lin 5000 2 16 (iblk0 V c 0 t) (iblk0 V c 1 t) (ix2 p q)
    = lin 250000 2 16 (V c main_arg0) (V c main_arg2) (((cfg0.win 2).blk t).view.emb (ix2 p q))
  rw [emb_out t p q]
  exact lin_entry _ _ _ _ p (row t.val t.isLt p) q (fun k => read_x V c t p k) (fun k => read_w V c t k q)

/-- An index of the result is in point t's block iff each coordinate is in the block's range. -/
theorem in_block_iff (t : Fin cfg0.N) (i : S250000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v13).slice (win0_2.rect t)).set ↔ _
  rw [View.set_slice_whole, Rect.mem_set_unit]
  exact Iff.rfl

/-- Every index of the result is in the block of the point its row falls in. -/
theorem rows_covered (i : S250000x16.Idx) : ∃ t : Fin cfg0.N, (cfg0.win 2).flush t = true ∧ i ∈ ((cfg0.win 2).blk t).view.set := by
  have hi0 : (i 0).val < 250000 := (i 0).isLt
  have hi1 : (i 1).val < 16 := (i 1).isLt
  let t : Fin cfg0.N := ⟨(i 0).val / 5000, by show (i 0).val / 5000 < 50; omega⟩
  obtain ⟨-, -, -, -, e4, e5⟩ := block_of_point t
  have ht : t.val = (i 0).val / 5000 := rfl
  refine ⟨t, flush0_2 t, ?_⟩
  rw [in_block_iff]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 16 ≤ (i 1).val ∧ (i 1).val < win0_2.index t (1 : Fin 2) * 16 + 16; omega

/-- The result array after the launch is the product of all rows of the left factor as the launch found it. -/
theorem whole_array (c : Dev nD) : (dat0 V c).arrAt 2 cfg0.N = lin 250000 2 16 (V c main_arg0) (V c main_arg2) :=
  (dat0 V c).arrAt_eq_of_cover 2 _ (fun t _ => written_block V c t) rows_covered

end Cert.KernelIdeal.Blocks0

end
-- ==== Proof.Blocks1.lean ====
/-
  The second launch: the first layer's messages, self term, bias and activation, block by block.

  The launch walks over 50 blocks of 5000 consecutive rows.  At block t it loads rows 5000 t … 5000 t + 4999 of the
  product with the weights, of the aggregated messages and of the per-node factor's column, and the whole bias row,
  and writes (agg + d * xw) + b, cut below at zero, to the same rows of its result.  Entry (r, n) of that
  on all rows depends on entry (r, n) of the messages and of the product, on the factor of row r and on the bias of
  column n, so what block t writes is block t of the layer on all rows, and the blocks cover every row.
-/
import proofs.«144625_j11390253269721_1_alg».proof.Proof.Gen.KernelIdeal.Frame
import proofs.«144625_j11390253269721_1_alg».proof.Proof.LibGcnLayer
import proofs.«144625_j11390253269721_1_alg».proof.Proof.Rows

set_option maxRecDepth 16384

noncomputable section

namespace Cert.KernelIdeal.Blocks1

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The body's arithmetic on its loaded blocks: the messages' block, the factor's column, the product's block, the bias row. -/
theorem body_eq (v0 : Vec Ideal S5000x16 .f32) (v2 : Vec Ideal S5000x1 .f32) (v4 : Vec Ideal S5000x16 .f32) (v9 : Vec Ideal S1x16 .f32) :
    k1_pay1 v0 v2 v4 v9 = combRelu 5000 16 v0 v4 v2 v9 :=
  combRelu_of_body v0 v4 v2 v9 shapeCasts_S5000x16_S5000x16 shapeCasts_S5000x1_S5000x1 shapeCasts_S1x16_S1x16 broadcasts_S5000x1_S5000x16 broadcasts_S1x16_S5000x16

/-- The index maps over the grid: the bias row's block is the whole row; every other window's block of point t is block
    t of the rows. -/
theorem block_of_point : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The product's block at point t holds rows 5000 t + p of it. -/
theorem read_xw (c : Dev nD) (t : Fin cfg1.N) (p : Fin 5000) (q : Fin 16) :
    iblk1 V c 0 t (ix2 p q) = V c main_v13 (ix2 (row t.val t.isLt p) q) := by
  obtain ⟨e0, e1, -⟩ := block_of_point t
  show V c main_v13 (((cfg1.win 0).blk t).view.emb (ix2 p q)) = V c main_v13 (ix2 (row t.val t.isLt p) q)
  refine congrArg (V c main_v13) (funext fun a => Fin.ext ?_)
  match a with
  | ⟨0, _⟩ => show win1_0.index t (0 : Fin 2) * 5000 + 1 * p.val = t.val * 5000 + p.val; omega
  | ⟨1, _⟩ => show win1_0.index t (1 : Fin 2) * 16 + 1 * q.val = q.val; omega

/-- The messages' block at point t holds rows 5000 t + p of them. -/
theorem read_agg (c : Dev nD) (t : Fin cfg1.N) (p : Fin 5000) (q : Fin 16) :
    iblk1 V c 1 t (ix2 p q) = V c main_v41 (ix2 (row t.val t.isLt p) q) := by
  obtain ⟨-, -, e2, e3, -⟩ := block_of_point t
  show V c main_v41 (((cfg1.win 1).blk t).view.emb (ix2 p q)) = V c main_v41 (ix2 (row t.val t.isLt p) q)
  refine congrArg (V c main_v41) (funext fun a => Fin.ext ?_)
  match a with
  | ⟨0, _⟩ => show win1_1.index t (0 : Fin 2) * 5000 + 1 * p.val = t.val * 5000 + p.val; omega
  | ⟨1, _⟩ => show win1_1.index t (1 : Fin 2) * 16 + 1 * q.val = q.val; omega

/-- The factor's block at point t holds rows 5000 t + p of its column. -/
theorem read_d (c : Dev nD) (t : Fin cfg1.N) (p : Fin 5000) :
    iblk1 V c 2 t (ix2 p (0 : Fin 1)) = V c main_v42 (ix2 (row t.val t.isLt p) (0 : Fin 1)) := by
  obtain ⟨-, -, -, -, e4, e5, -⟩ := block_of_point t
  show V c main_v42 (((cfg1.win 2).blk t).view.emb (ix2 p (0 : Fin 1))) = V c main_v42 (ix2 (row t.val t.isLt p) (0 : Fin 1))
  refine congrArg (V c main_v42) (funext fun a => Fin.ext ?_)
  match a with
  | ⟨0, _⟩ => show win1_2.index t (0 : Fin 2) * 5000 + 1 * p.val = t.val * 5000 + p.val; omega
  | ⟨1, _⟩ => show win1_2.index t (1 : Fin 2) * 1 + 1 * 0 = 0; omega

/-- The bias row's block at every point is the whole row. -/
theorem read_b (c : Dev nD) (t : Fin cfg1.N) (q : Fin 16) :
    iblk1 V c 3 t (ix2 (0 : Fin 1) q) = V c main_v43 (ix2 (0 : Fin 1) q) := by
  obtain ⟨-, -, -, -, -, -, e6, e7, -⟩ := block_of_point t
  show V c main_v43 (((cfg1.win 3).blk t).view.emb (ix2 (0 : Fin 1) q)) = V c main_v43 (ix2 (0 : Fin 1) q)
  refine congrArg (V c main_v43) (funext fun a => Fin.ext ?_)
  match a with
  | ⟨0, _⟩ => show win1_3.index t (0 : Fin 2) * 1 + 1 * 0 = 0; omega
  | ⟨1, _⟩ => show win1_3.index t (1 : Fin 2) * 16 + 1 * q.val = q.val; omega

/-- Entry (p, q) of the result's block at point t sits at row 5000 t + p, column q of the result. -/
theorem emb_out (t : Fin cfg1.N) (p : Fin 5000) (q : Fin 16) :
    ((cfg1.win 4).blk t).view.emb (ix2 p q) = ix2 (row t.val t.isLt p) q := by
  obtain ⟨-, -, -, -, -, -, -, -, e8, e9⟩ := block_of_point t
  refine funext fun a => Fin.ext ?_
  match a with
  | ⟨0, _⟩ => show win1_4.index t (0 : Fin 2) * 5000 + 1 * p.val = t.val * 5000 + p.val; omega
  | ⟨1, _⟩ => show win1_4.index t (1 : Fin 2) * 16 + 1 * q.val = q.val; omega

/-- What point t writes back is block t of the layer on all rows. -/
theorem written_block (c : Dev nD) (t : Fin cfg1.N) :
    (dat1 V c).flushed 4 t = ((cfg1.win 4).blk t).view.read (Elt Ideal)
      (combRelu 250000 16 (V c main_v41) (V c main_v13) (V c main_v42) (V c main_v43)) := by
  show (cfg1.win 4).cut (grid1.coords t) ((dat1 V c).after 4 t) = _
  rw [after1_4]
  unfold out1_4
  rw [View.canon_unit_zero zero_offsets]
  simp only [View.ld_unit_zero (S := S5000x16) zero_offsets, View.ld_unit_zero (S := S5000x1) zero_offsets, View.ld_unit_zero (S := S1x16) zero_offsets]
  rw [body_eq]
  funext y
  obtain ⟨p, q, rfl⟩ : ∃ (p : Fin 5000) (q : Fin 16), y = ix2 p q := ⟨y 0, y 1, eq_ix2 y⟩
  show combRelu 5000 16 (iblk1 V c 1 t) (iblk1 V c 0 t) (iblk1 V c 2 t) (iblk1 V c 3 t) (ix2 p q)
    = combRelu 250000 16 (V c main_v41) (V c main_v13) (V c main_v42) (V c main_v43) (((cfg1.win 4).blk t).view.emb (ix2 p q))
  rw [emb_out t p q]
  exact combRelu_entry _ _ _ _ _ _ _ _ p (row t.val t.isLt p) q (read_agg V c t p q) (read_xw V c t p q) (read_d V c t p) (read_b V c t q)

/-- An index of the result is in point t's block iff each coordinate is in the block's range. -/
theorem in_block_iff (t : Fin cfg1.N) (i : S250000x16.Idx) :
    i ∈ ((cfg1.win 4).blk t).view.set ↔ ∀ a : Fin 2, win1_4.index t a * S5000x16.size a ≤ (i a).val ∧ (i a).val < win1_4.index t a * S5000x16.size a + S5000x16.size a := by
  show i ∈ ((View.whole main_v44).slice (win1_4.rect t)).set ↔ _
  rw [View.set_slice_whole, Rect.mem_set_unit]
  exact Iff.rfl

/-- Every index of the result is in the block of the point its row falls in. -/
theorem rows_covered (i : S250000x16.Idx) : ∃ t : Fin cfg1.N, (cfg1.win 4).flush t = true ∧ i ∈ ((cfg1.win 4).blk t).view.set := by
  have hi0 : (i 0).val < 250000 := (i 0).isLt
  have hi1 : (i 1).val < 16 := (i 1).isLt
  let t : Fin cfg1.N := ⟨(i 0).val / 5000, by show (i 0).val / 5000 < 50; omega⟩
  obtain ⟨-, -, -, -, -, -, -, -, e8, e9⟩ := block_of_point t
  have ht : t.val = (i 0).val / 5000 := rfl
  refine ⟨t, flush1_4 t, ?_⟩
  rw [in_block_iff]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 16 ≤ (i 1).val ∧ (i 1).val < win1_4.index t (1 : Fin 2) * 16 + 16; omega

/-- The result array after the launch is the layer on all rows of the arrays as the launch found them. -/
theorem whole_array (c : Dev nD) : (dat1 V c).arrAt 4 cfg1.N
    = combRelu 250000 16 (V c main_v41) (V c main_v13) (V c main_v42) (V c main_v43) :=
  (dat1 V c).arrAt_eq_of_cover 4 _ (fun t _ => written_block V c t) rows_covered

end Cert.KernelIdeal.Blocks1

end
-- ==== Proof.Blocks2.lean ====
/-
  The third launch: the product of the first layer's output with the second layer's weights, block by block.

  The launch walks over 50 blocks of 5000 consecutive rows.  At block t it loads rows 5000 t … 5000 t + 4999 of
  the first layer's output and the whole weight matrix, and writes the block's product to the same rows of its result.  Entry
  (r, n) of the product of all rows depends on row r only, so what block t writes is block t of the product of
  all rows, and the blocks cover every row: the result array ends as the whole product.
-/
import proofs.«144625_j11390253269721_1_alg».proof.Proof.Gen.KernelIdeal.Frame
import proofs.«144625_j11390253269721_1_alg».proof.Proof.LibGcnLayer
import proofs.«144625_j11390253269721_1_alg».proof.Proof.Rows

set_option maxRecDepth 16384

noncomputable section

namespace Cert.KernelIdeal.Blocks2

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The body's arithmetic is the product of the loaded blocks. -/
theorem body_eq (x0 : Vec Ideal S5000x16 .f32) (x1 : Vec Ideal S16x16 .f32) : k2_pay1 x0 x1 = lin 5000 16 16 x0 x1 := by
  unfold k2_pay1
  simp only [shapeCast_self]
  exact lin_of_matmul x0 x1 bitsLt_bf16_f32

/-- The index maps over the grid: the left factor's and the result's block of point t is block t of the rows, the
    weights' block is the whole matrix. -/
theorem block_of_point : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left factor's block at point t holds rows 5000 t + p of it. -/
theorem read_x (c : Dev nD) (t : Fin cfg2.N) (p : Fin 5000) (k : Fin 16) :
    iblk2 V c 0 t (ix2 p k) = V c main_v44 (ix2 (row t.val t.isLt p) k) := by
  obtain ⟨e0, e1, -⟩ := block_of_point t
  show V c main_v44 (((cfg2.win 0).blk t).view.emb (ix2 p k)) = V c main_v44 (ix2 (row t.val t.isLt p) k)
  refine congrArg (V c main_v44) (funext fun a => Fin.ext ?_)
  match a with
  | ⟨0, _⟩ => show win2_0.index t (0 : Fin 2) * 5000 + 1 * p.val = t.val * 5000 + p.val; omega
  | ⟨1, _⟩ => show win2_0.index t (1 : Fin 2) * 16 + 1 * k.val = k.val; omega

/-- The weights' block at every point is the whole matrix. -/
theorem read_w (c : Dev nD) (t : Fin cfg2.N) (k : Fin 16) (q : Fin 16) :
    iblk2 V c 1 t (ix2 k q) = V c main_arg4 (ix2 k q) := by
  obtain ⟨-, -, e2, e3, -⟩ := block_of_point t
  show V c main_arg4 (((cfg2.win 1).blk t).view.emb (ix2 k q)) = V c main_arg4 (ix2 k q)
  refine congrArg (V c main_arg4) (funext fun a => Fin.ext ?_)
  match a with
  | ⟨0, _⟩ => show win2_1.index t (0 : Fin 2) * 16 + 1 * k.val = k.val; omega
  | ⟨1, _⟩ => show win2_1.index t (1 : Fin 2) * 16 + 1 * q.val = q.val; omega

/-- Entry (p, q) of the result's block at point t sits at row 5000 t + p, column q of the result. -/
theorem emb_out (t : Fin cfg2.N) (p : Fin 5000) (q : Fin 16) :
    ((cfg2.win 2).blk t).view.emb (ix2 p q) = ix2 (row t.val t.isLt p) q := by
  obtain ⟨-, -, -, -, e4, e5⟩ := block_of_point t
  refine funext fun a => Fin.ext ?_
  match a with
  | ⟨0, _⟩ => show win2_2.index t (0 : Fin 2) * 5000 + 1 * p.val = t.val * 5000 + p.val; omega
  | ⟨1, _⟩ => show win2_2.index t (1 : Fin 2) * 16 + 1 * q.val = q.val; omega

/-- What point t writes back is block t of the product of all rows. -/
theorem written_block (c : Dev nD) (t : Fin cfg2.N) :
    (dat2 V c).flushed 2 t = ((cfg2.win 2).blk t).view.read (Elt Ideal) (lin 250000 16 16 (V c main_v44) (V c main_arg4)) := by
  show (cfg2.win 2).cut (grid2.coords t) ((dat2 V c).after 2 t) = _
  rw [after2_2]
  unfold out2_2
  rw [View.canon_unit_zero zero_offsets]
  simp only [View.ld_unit_zero (S := S5000x16) zero_offsets, View.ld_unit_zero (S := S16x16) zero_offsets]
  rw [body_eq]
  funext y
  obtain ⟨p, q, rfl⟩ : ∃ (p : Fin 5000) (q : Fin 16), y = ix2 p q := ⟨y 0, y 1, eq_ix2 y⟩
  show lin 5000 16 16 (iblk2 V c 0 t) (iblk2 V c 1 t) (ix2 p q)
    = lin 250000 16 16 (V c main_v44) (V c main_arg4) (((cfg2.win 2).blk t).view.emb (ix2 p q))
  rw [emb_out t p q]
  exact lin_entry _ _ _ _ p (row t.val t.isLt p) q (fun k => read_x V c t p k) (fun k => read_w V c t k q)

/-- An index of the result is in point t's block iff each coordinate is in the block's range. -/
theorem in_block_iff (t : Fin cfg2.N) (i : S250000x16.Idx) :
    i ∈ ((cfg2.win 2).blk t).view.set ↔ ∀ a : Fin 2, win2_2.index t a * S5000x16.size a ≤ (i a).val ∧ (i a).val < win2_2.index t a * S5000x16.size a + S5000x16.size a := by
  show i ∈ ((View.whole main_v45).slice (win2_2.rect t)).set ↔ _
  rw [View.set_slice_whole, Rect.mem_set_unit]
  exact Iff.rfl

/-- Every index of the result is in the block of the point its row falls in. -/
theorem rows_covered (i : S250000x16.Idx) : ∃ t : Fin cfg2.N, (cfg2.win 2).flush t = true ∧ i ∈ ((cfg2.win 2).blk t).view.set := by
  have hi0 : (i 0).val < 250000 := (i 0).isLt
  have hi1 : (i 1).val < 16 := (i 1).isLt
  let t : Fin cfg2.N := ⟨(i 0).val / 5000, by show (i 0).val / 5000 < 50; omega⟩
  obtain ⟨-, -, -, -, e4, e5⟩ := block_of_point t
  have ht : t.val = (i 0).val / 5000 := rfl
  refine ⟨t, flush2_2 t, ?_⟩
  rw [in_block_iff]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 16 ≤ (i 1).val ∧ (i 1).val < win2_2.index t (1 : Fin 2) * 16 + 16; omega

/-- The result array after the launch is the product of all rows of the left factor as the launch found it. -/
theorem whole_array (c : Dev nD) : (dat2 V c).arrAt 2 cfg2.N = lin 250000 16 16 (V c main_v44) (V c main_arg4) :=
  (dat2 V c).arrAt_eq_of_cover 2 _ (fun t _ => written_block V c t) rows_covered

end Cert.KernelIdeal.Blocks2

end
-- ==== Proof.Blocks3.lean ====
/-
  The fourth launch: the second layer's messages, self term, bias and activation, block by block.

  The launch walks over 50 blocks of 5000 consecutive rows.  At block t it loads rows 5000 t … 5000 t + 4999 of the
  product with the weights, of the aggregated messages and of the per-node factor's column, and the whole bias row,
  and writes (agg + d * xw) + b, cut below at zero, to the same rows of its result.  Entry (r, n) of that
  on all rows depends on entry (r, n) of the messages and of the product, on the factor of row r and on the bias of
  column n, so what block t writes is block t of the layer on all rows, and the blocks cover every row.
-/
import proofs.«144625_j11390253269721_1_alg».proof.Proof.Gen.KernelIdeal.Frame
import proofs.«144625_j11390253269721_1_alg».proof.Proof.LibGcnLayer
import proofs.«144625_j11390253269721_1_alg».proof.Proof.Rows

set_option maxRecDepth 16384

noncomputable section

namespace Cert.KernelIdeal.Blocks3

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The body's arithmetic on its loaded blocks: the messages' block, the factor's column, the product's block, the bias row. -/
theorem body_eq (v0 : Vec Ideal S5000x16 .f32) (v2 : Vec Ideal S5000x1 .f32) (v4 : Vec Ideal S5000x16 .f32) (v9 : Vec Ideal S1x16 .f32) :
    k3_pay1 v0 v2 v4 v9 = combRelu 5000 16 v0 v4 v2 v9 :=
  combRelu_of_body v0 v4 v2 v9 shapeCasts_S5000x16_S5000x16 shapeCasts_S5000x1_S5000x1 shapeCasts_S1x16_S1x16 broadcasts_S5000x1_S5000x16 broadcasts_S1x16_S5000x16

/-- The index maps over the grid: the bias row's block is the whole row; every other window's block of point t is block
    t of the rows. -/
theorem block_of_point : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The product's block at point t holds rows 5000 t + p of it. -/
theorem read_xw (c : Dev nD) (t : Fin cfg3.N) (p : Fin 5000) (q : Fin 16) :
    iblk3 V c 0 t (ix2 p q) = V c main_v45 (ix2 (row t.val t.isLt p) q) := by
  obtain ⟨e0, e1, -⟩ := block_of_point t
  show V c main_v45 (((cfg3.win 0).blk t).view.emb (ix2 p q)) = V c main_v45 (ix2 (row t.val t.isLt p) q)
  refine congrArg (V c main_v45) (funext fun a => Fin.ext ?_)
  match a with
  | ⟨0, _⟩ => show win3_0.index t (0 : Fin 2) * 5000 + 1 * p.val = t.val * 5000 + p.val; omega
  | ⟨1, _⟩ => show win3_0.index t (1 : Fin 2) * 16 + 1 * q.val = q.val; omega

/-- The messages' block at point t holds rows 5000 t + p of them. -/
theorem read_agg (c : Dev nD) (t : Fin cfg3.N) (p : Fin 5000) (q : Fin 16) :
    iblk3 V c 1 t (ix2 p q) = V c main_v73 (ix2 (row t.val t.isLt p) q) := by
  obtain ⟨-, -, e2, e3, -⟩ := block_of_point t
  show V c main_v73 (((cfg3.win 1).blk t).view.emb (ix2 p q)) = V c main_v73 (ix2 (row t.val t.isLt p) q)
  refine congrArg (V c main_v73) (funext fun a => Fin.ext ?_)
  match a with
  | ⟨0, _⟩ => show win3_1.index t (0 : Fin 2) * 5000 + 1 * p.val = t.val * 5000 + p.val; omega
  | ⟨1, _⟩ => show win3_1.index t (1 : Fin 2) * 16 + 1 * q.val = q.val; omega

/-- The factor's block at point t holds rows 5000 t + p of its column. -/
theorem read_d (c : Dev nD) (t : Fin cfg3.N) (p : Fin 5000) :
    iblk3 V c 2 t (ix2 p (0 : Fin 1)) = V c main_v74 (ix2 (row t.val t.isLt p) (0 : Fin 1)) := by
  obtain ⟨-, -, -, -, e4, e5, -⟩ := block_of_point t
  show V c main_v74 (((cfg3.win 2).blk t).view.emb (ix2 p (0 : Fin 1))) = V c main_v74 (ix2 (row t.val t.isLt p) (0 : Fin 1))
  refine congrArg (V c main_v74) (funext fun a => Fin.ext ?_)
  match a with
  | ⟨0, _⟩ => show win3_2.index t (0 : Fin 2) * 5000 + 1 * p.val = t.val * 5000 + p.val; omega
  | ⟨1, _⟩ => show win3_2.index t (1 : Fin 2) * 1 + 1 * 0 = 0; omega

/-- The bias row's block at every point is the whole row. -/
theorem read_b (c : Dev nD) (t : Fin cfg3.N) (q : Fin 16) :
    iblk3 V c 3 t (ix2 (0 : Fin 1) q) = V c main_v75 (ix2 (0 : Fin 1) q) := by
  obtain ⟨-, -, -, -, -, -, e6, e7, -⟩ := block_of_point t
  show V c main_v75 (((cfg3.win 3).blk t).view.emb (ix2 (0 : Fin 1) q)) = V c main_v75 (ix2 (0 : Fin 1) q)
  refine congrArg (V c main_v75) (funext fun a => Fin.ext ?_)
  match a with
  | ⟨0, _⟩ => show win3_3.index t (0 : Fin 2) * 1 + 1 * 0 = 0; omega
  | ⟨1, _⟩ => show win3_3.index t (1 : Fin 2) * 16 + 1 * q.val = q.val; omega

/-- Entry (p, q) of the result's block at point t sits at row 5000 t + p, column q of the result. -/
theorem emb_out (t : Fin cfg3.N) (p : Fin 5000) (q : Fin 16) :
    ((cfg3.win 4).blk t).view.emb (ix2 p q) = ix2 (row t.val t.isLt p) q := by
  obtain ⟨-, -, -, -, -, -, -, -, e8, e9⟩ := block_of_point t
  refine funext fun a => Fin.ext ?_
  match a with
  | ⟨0, _⟩ => show win3_4.index t (0 : Fin 2) * 5000 + 1 * p.val = t.val * 5000 + p.val; omega
  | ⟨1, _⟩ => show win3_4.index t (1 : Fin 2) * 16 + 1 * q.val = q.val; omega

/-- What point t writes back is block t of the layer on all rows. -/
theorem written_block (c : Dev nD) (t : Fin cfg3.N) :
    (dat3 V c).flushed 4 t = ((cfg3.win 4).blk t).view.read (Elt Ideal)
      (combRelu 250000 16 (V c main_v73) (V c main_v45) (V c main_v74) (V c main_v75)) := by
  show (cfg3.win 4).cut (grid3.coords t) ((dat3 V c).after 4 t) = _
  rw [after3_4]
  unfold out3_4
  rw [View.canon_unit_zero zero_offsets]
  simp only [View.ld_unit_zero (S := S5000x16) zero_offsets, View.ld_unit_zero (S := S5000x1) zero_offsets, View.ld_unit_zero (S := S1x16) zero_offsets]
  rw [body_eq]
  funext y
  obtain ⟨p, q, rfl⟩ : ∃ (p : Fin 5000) (q : Fin 16), y = ix2 p q := ⟨y 0, y 1, eq_ix2 y⟩
  show combRelu 5000 16 (iblk3 V c 1 t) (iblk3 V c 0 t) (iblk3 V c 2 t) (iblk3 V c 3 t) (ix2 p q)
    = combRelu 250000 16 (V c main_v73) (V c main_v45) (V c main_v74) (V c main_v75) (((cfg3.win 4).blk t).view.emb (ix2 p q))
  rw [emb_out t p q]
  exact combRelu_entry _ _ _ _ _ _ _ _ p (row t.val t.isLt p) q (read_agg V c t p q) (read_xw V c t p q) (read_d V c t p) (read_b V c t q)

/-- An index of the result is in point t's block iff each coordinate is in the block's range. -/
theorem in_block_iff (t : Fin cfg3.N) (i : S250000x16.Idx) :
    i ∈ ((cfg3.win 4).blk t).view.set ↔ ∀ a : Fin 2, win3_4.index t a * S5000x16.size a ≤ (i a).val ∧ (i a).val < win3_4.index t a * S5000x16.size a + S5000x16.size a := by
  show i ∈ ((View.whole main_v76).slice (win3_4.rect t)).set ↔ _
  rw [View.set_slice_whole, Rect.mem_set_unit]
  exact Iff.rfl

/-- Every index of the result is in the block of the point its row falls in. -/
theorem rows_covered (i : S250000x16.Idx) : ∃ t : Fin cfg3.N, (cfg3.win 4).flush t = true ∧ i ∈ ((cfg3.win 4).blk t).view.set := by
  have hi0 : (i 0).val < 250000 := (i 0).isLt
  have hi1 : (i 1).val < 16 := (i 1).isLt
  let t : Fin cfg3.N := ⟨(i 0).val / 5000, by show (i 0).val / 5000 < 50; omega⟩
  obtain ⟨-, -, -, -, -, -, -, -, e8, e9⟩ := block_of_point t
  have ht : t.val = (i 0).val / 5000 := rfl
  refine ⟨t, flush3_4 t, ?_⟩
  rw [in_block_iff]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 16 ≤ (i 1).val ∧ (i 1).val < win3_4.index t (1 : Fin 2) * 16 + 16; omega

/-- The result array after the launch is the layer on all rows of the arrays as the launch found them. -/
theorem whole_array (c : Dev nD) : (dat3 V c).arrAt 4 cfg3.N
    = combRelu 250000 16 (V c main_v73) (V c main_v45) (V c main_v74) (V c main_v75) :=
  (dat3 V c).arrAt_eq_of_cover 4 _ (fun t _ => written_block V c t) rows_covered

end Cert.KernelIdeal.Blocks3

end
-- ==== Proof.Blocks4.lean ====
/-
  The fifth launch: the product of the second layer's output with the last layer's weights, block by block.

  The launch walks over 50 blocks of 5000 consecutive rows.  At block t it loads rows 5000 t … 5000 t + 4999 of
  the second layer's output and the whole weight matrix, and writes the block's product to the same rows of its result.  Entry
  (r, n) of the product of all rows depends on row r only, so what block t writes is block t of the product of
  all rows, and the blocks cover every row: the result array ends as the whole product.
-/
import proofs.«144625_j11390253269721_1_alg».proof.Proof.Gen.KernelIdeal.Frame
import proofs.«144625_j11390253269721_1_alg».proof.Proof.LibGcnLayer
import proofs.«144625_j11390253269721_1_alg».proof.Proof.Rows

set_option maxRecDepth 16384

noncomputable section

namespace Cert.KernelIdeal.Blocks4

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The body's arithmetic is the product of the loaded blocks. -/
theorem body_eq (x0 : Vec Ideal S5000x16 .f32) (x1 : Vec Ideal S16x1 .f32) : k4_pay1 x0 x1 = lin 5000 16 1 x0 x1 := by
  unfold k4_pay1
  simp only [shapeCast_self]
  exact lin_of_matmul x0 x1 bitsLt_bf16_f32

/-- The index maps over the grid: the left factor's and the result's block of point t is block t of the rows, the
    weights' block is the whole matrix. -/
theorem block_of_point : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The left factor's block at point t holds rows 5000 t + p of it. -/
theorem read_x (c : Dev nD) (t : Fin cfg4.N) (p : Fin 5000) (k : Fin 16) :
    iblk4 V c 0 t (ix2 p k) = V c main_v76 (ix2 (row t.val t.isLt p) k) := by
  obtain ⟨e0, e1, -⟩ := block_of_point t
  show V c main_v76 (((cfg4.win 0).blk t).view.emb (ix2 p k)) = V c main_v76 (ix2 (row t.val t.isLt p) k)
  refine congrArg (V c main_v76) (funext fun a => Fin.ext ?_)
  match a with
  | ⟨0, _⟩ => show win4_0.index t (0 : Fin 2) * 5000 + 1 * p.val = t.val * 5000 + p.val; omega
  | ⟨1, _⟩ => show win4_0.index t (1 : Fin 2) * 16 + 1 * k.val = k.val; omega

/-- The weights' block at every point is the whole matrix. -/
theorem read_w (c : Dev nD) (t : Fin cfg4.N) (k : Fin 16) (q : Fin 1) :
    iblk4 V c 1 t (ix2 k q) = V c main_arg6 (ix2 k q) := by
  obtain ⟨-, -, e2, e3, -⟩ := block_of_point t
  show V c main_arg6 (((cfg4.win 1).blk t).view.emb (ix2 k q)) = V c main_arg6 (ix2 k q)
  refine congrArg (V c main_arg6) (funext fun a => Fin.ext ?_)
  match a with
  | ⟨0, _⟩ => show win4_1.index t (0 : Fin 2) * 16 + 1 * k.val = k.val; omega
  | ⟨1, _⟩ => show win4_1.index t (1 : Fin 2) * 1 + 1 * q.val = q.val; omega

/-- Entry (p, q) of the result's block at point t sits at row 5000 t + p, column q of the result. -/
theorem emb_out (t : Fin cfg4.N) (p : Fin 5000) (q : Fin 1) :
    ((cfg4.win 2).blk t).view.emb (ix2 p q) = ix2 (row t.val t.isLt p) q := by
  obtain ⟨-, -, -, -, e4, e5⟩ := block_of_point t
  refine funext fun a => Fin.ext ?_
  match a with
  | ⟨0, _⟩ => show win4_2.index t (0 : Fin 2) * 5000 + 1 * p.val = t.val * 5000 + p.val; omega
  | ⟨1, _⟩ => show win4_2.index t (1 : Fin 2) * 1 + 1 * q.val = q.val; omega

/-- What point t writes back is block t of the product of all rows. -/
theorem written_block (c : Dev nD) (t : Fin cfg4.N) :
    (dat4 V c).flushed 2 t = ((cfg4.win 2).blk t).view.read (Elt Ideal) (lin 250000 16 1 (V c main_v76) (V c main_arg6)) := by
  show (cfg4.win 2).cut (grid4.coords t) ((dat4 V c).after 2 t) = _
  rw [after4_2]
  unfold out4_2
  rw [View.canon_unit_zero zero_offsets]
  simp only [View.ld_unit_zero (S := S5000x16) zero_offsets, View.ld_unit_zero (S := S16x1) zero_offsets]
  rw [body_eq]
  funext y
  obtain ⟨p, q, rfl⟩ : ∃ (p : Fin 5000) (q : Fin 1), y = ix2 p q := ⟨y 0, y 1, eq_ix2 y⟩
  show lin 5000 16 1 (iblk4 V c 0 t) (iblk4 V c 1 t) (ix2 p q)
    = lin 250000 16 1 (V c main_v76) (V c main_arg6) (((cfg4.win 2).blk t).view.emb (ix2 p q))
  rw [emb_out t p q]
  exact lin_entry _ _ _ _ p (row t.val t.isLt p) q (fun k => read_x V c t p k) (fun k => read_w V c t k q)

/-- An index of the result is in point t's block iff each coordinate is in the block's range. -/
theorem in_block_iff (t : Fin cfg4.N) (i : S250000x1.Idx) :
    i ∈ ((cfg4.win 2).blk t).view.set ↔ ∀ a : Fin 2, win4_2.index t a * S5000x1.size a ≤ (i a).val ∧ (i a).val < win4_2.index t a * S5000x1.size a + S5000x1.size a := by
  show i ∈ ((View.whole main_v77).slice (win4_2.rect t)).set ↔ _
  rw [View.set_slice_whole, Rect.mem_set_unit]
  exact Iff.rfl

/-- Every index of the result is in the block of the point its row falls in. -/
theorem rows_covered (i : S250000x1.Idx) : ∃ t : Fin cfg4.N, (cfg4.win 2).flush t = true ∧ i ∈ ((cfg4.win 2).blk t).view.set := by
  have hi0 : (i 0).val < 250000 := (i 0).isLt
  have hi1 : (i 1).val < 1 := (i 1).isLt
  let t : Fin cfg4.N := ⟨(i 0).val / 5000, by show (i 0).val / 5000 < 50; omega⟩
  obtain ⟨-, -, -, -, e4, e5⟩ := block_of_point t
  have ht : t.val = (i 0).val / 5000 := rfl
  refine ⟨t, flush4_2 t, ?_⟩
  rw [in_block_iff]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 1 ≤ (i 1).val ∧ (i 1).val < win4_2.index t (1 : Fin 2) * 1 + 1; omega

/-- The result array after the launch is the product of all rows of the left factor as the launch found it. -/
theorem whole_array (c : Dev nD) : (dat4 V c).arrAt 2 cfg4.N = lin 250000 16 1 (V c main_v76) (V c main_arg6) :=
  (dat4 V c).arrAt_eq_of_cover 2 _ (fun t _ => written_block V c t) rows_covered

end Cert.KernelIdeal.Blocks4

end
-- ==== Proof.Blocks5.lean ====
/-
  The sixth launch: the last layer's messages, self term and bias, block by block.

  The launch walks over 50 blocks of 5000 consecutive rows.  At block t it loads rows 5000 t … 5000 t + 4999 of the
  product with the weights, of the aggregated messages and of the per-node factor's column, and the whole bias row,
  and writes (agg + d * xw) + b to the same rows of its result.  Entry (r, n) of that
  on all rows depends on entry (r, n) of the messages and of the product, on the factor of row r and on the bias of
  column n, so what block t writes is block t of the layer on all rows, and the blocks cover every row.
-/
import proofs.«144625_j11390253269721_1_alg».proof.Proof.Gen.KernelIdeal.Frame
import proofs.«144625_j11390253269721_1_alg».proof.Proof.LibGcnLayer
import proofs.«144625_j11390253269721_1_alg».proof.Proof.Rows

set_option maxRecDepth 16384

noncomputable section

namespace Cert.KernelIdeal.Blocks5

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The body's arithmetic on its loaded blocks: the messages' block, the factor's column, the product's block, the bias row. -/
theorem body_eq (v0 : Vec Ideal S5000x1 .f32) (v2 : Vec Ideal S5000x1 .f32) (v4 : Vec Ideal S5000x1 .f32) (v9 : Vec Ideal S1x1 .f32) :
    k5_pay1 v0 v2 v4 v9 = comb 5000 1 v0 v4 v2 v9 :=
  comb_of_body v0 v4 v2 v9 shapeCasts_S5000x1_S5000x1 shapeCasts_S1x1_S1x1 broadcasts_S1x1_S5000x1

/-- The index maps over the grid: the bias row's block is the whole row; every other window's block of point t is block
    t of the rows. -/
theorem block_of_point : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- The product's block at point t holds rows 5000 t + p of it. -/
theorem read_xw (c : Dev nD) (t : Fin cfg5.N) (p : Fin 5000) (q : Fin 1) :
    iblk5 V c 0 t (ix2 p q) = V c main_v77 (ix2 (row t.val t.isLt p) q) := by
  obtain ⟨e0, e1, -⟩ := block_of_point t
  show V c main_v77 (((cfg5.win 0).blk t).view.emb (ix2 p q)) = V c main_v77 (ix2 (row t.val t.isLt p) q)
  refine congrArg (V c main_v77) (funext fun a => Fin.ext ?_)
  match a with
  | ⟨0, _⟩ => show win5_0.index t (0 : Fin 2) * 5000 + 1 * p.val = t.val * 5000 + p.val; omega
  | ⟨1, _⟩ => show win5_0.index t (1 : Fin 2) * 1 + 1 * q.val = q.val; omega

/-- The messages' block at point t holds rows 5000 t + p of them. -/
theorem read_agg (c : Dev nD) (t : Fin cfg5.N) (p : Fin 5000) (q : Fin 1) :
    iblk5 V c 1 t (ix2 p q) = V c main_v104 (ix2 (row t.val t.isLt p) q) := by
  obtain ⟨-, -, e2, e3, -⟩ := block_of_point t
  show V c main_v104 (((cfg5.win 1).blk t).view.emb (ix2 p q)) = V c main_v104 (ix2 (row t.val t.isLt p) q)
  refine congrArg (V c main_v104) (funext fun a => Fin.ext ?_)
  match a with
  | ⟨0, _⟩ => show win5_1.index t (0 : Fin 2) * 5000 + 1 * p.val = t.val * 5000 + p.val; omega
  | ⟨1, _⟩ => show win5_1.index t (1 : Fin 2) * 1 + 1 * q.val = q.val; omega

/-- The factor's block at point t holds rows 5000 t + p of its column. -/
theorem read_d (c : Dev nD) (t : Fin cfg5.N) (p : Fin 5000) :
    iblk5 V c 2 t (ix2 p (0 : Fin 1)) = V c main_v105 (ix2 (row t.val t.isLt p) (0 : Fin 1)) := by
  obtain ⟨-, -, -, -, e4, e5, -⟩ := block_of_point t
  show V c main_v105 (((cfg5.win 2).blk t).view.emb (ix2 p (0 : Fin 1))) = V c main_v105 (ix2 (row t.val t.isLt p) (0 : Fin 1))
  refine congrArg (V c main_v105) (funext fun a => Fin.ext ?_)
  match a with
  | ⟨0, _⟩ => show win5_2.index t (0 : Fin 2) * 5000 + 1 * p.val = t.val * 5000 + p.val; omega
  | ⟨1, _⟩ => show win5_2.index t (1 : Fin 2) * 1 + 1 * 0 = 0; omega

/-- The bias row's block at every point is the whole row. -/
theorem read_b (c : Dev nD) (t : Fin cfg5.N) (q : Fin 1) :
    iblk5 V c 3 t (ix2 (0 : Fin 1) q) = V c main_v106 (ix2 (0 : Fin 1) q) := by
  obtain ⟨-, -, -, -, -, -, e6, e7, -⟩ := block_of_point t
  show V c main_v106 (((cfg5.win 3).blk t).view.emb (ix2 (0 : Fin 1) q)) = V c main_v106 (ix2 (0 : Fin 1) q)
  refine congrArg (V c main_v106) (funext fun a => Fin.ext ?_)
  match a with
  | ⟨0, _⟩ => show win5_3.index t (0 : Fin 2) * 1 + 1 * 0 = 0; omega
  | ⟨1, _⟩ => show win5_3.index t (1 : Fin 2) * 1 + 1 * q.val = q.val; omega

/-- Entry (p, q) of the result's block at point t sits at row 5000 t + p, column q of the result. -/
theorem emb_out (t : Fin cfg5.N) (p : Fin 5000) (q : Fin 1) :
    ((cfg5.win 4).blk t).view.emb (ix2 p q) = ix2 (row t.val t.isLt p) q := by
  obtain ⟨-, -, -, -, -, -, -, -, e8, e9⟩ := block_of_point t
  refine funext fun a => Fin.ext ?_
  match a with
  | ⟨0, _⟩ => show win5_4.index t (0 : Fin 2) * 5000 + 1 * p.val = t.val * 5000 + p.val; omega
  | ⟨1, _⟩ => show win5_4.index t (1 : Fin 2) * 1 + 1 * q.val = q.val; omega

/-- What point t writes back is block t of the layer on all rows. -/
theorem written_block (c : Dev nD) (t : Fin cfg5.N) :
    (dat5 V c).flushed 4 t = ((cfg5.win 4).blk t).view.read (Elt Ideal)
      (comb 250000 1 (V c main_v104) (V c main_v77) (V c main_v105) (V c main_v106)) := by
  show (cfg5.win 4).cut (grid5.coords t) ((dat5 V c).after 4 t) = _
  rw [after5_4]
  unfold out5_4
  rw [View.canon_unit_zero zero_offsets]
  simp only [View.ld_unit_zero (S := S5000x1) zero_offsets, View.ld_unit_zero (S := S1x1) zero_offsets]
  rw [body_eq]
  funext y
  obtain ⟨p, q, rfl⟩ : ∃ (p : Fin 5000) (q : Fin 1), y = ix2 p q := ⟨y 0, y 1, eq_ix2 y⟩
  show comb 5000 1 (iblk5 V c 1 t) (iblk5 V c 0 t) (iblk5 V c 2 t) (iblk5 V c 3 t) (ix2 p q)
    = comb 250000 1 (V c main_v104) (V c main_v77) (V c main_v105) (V c main_v106) (((cfg5.win 4).blk t).view.emb (ix2 p q))
  rw [emb_out t p q]
  exact comb_entry _ _ _ _ _ _ _ _ p (row t.val t.isLt p) q (read_agg V c t p q) (read_xw V c t p q) (read_d V c t p) (read_b V c t q)

/-- An index of the result is in point t's block iff each coordinate is in the block's range. -/
theorem in_block_iff (t : Fin cfg5.N) (i : S250000x1.Idx) :
    i ∈ ((cfg5.win 4).blk t).view.set ↔ ∀ a : Fin 2, win5_4.index t a * S5000x1.size a ≤ (i a).val ∧ (i a).val < win5_4.index t a * S5000x1.size a + S5000x1.size a := by
  show i ∈ ((View.whole main_v107).slice (win5_4.rect t)).set ↔ _
  rw [View.set_slice_whole, Rect.mem_set_unit]
  exact Iff.rfl

/-- Every index of the result is in the block of the point its row falls in. -/
theorem rows_covered (i : S250000x1.Idx) : ∃ t : Fin cfg5.N, (cfg5.win 4).flush t = true ∧ i ∈ ((cfg5.win 4).blk t).view.set := by
  have hi0 : (i 0).val < 250000 := (i 0).isLt
  have hi1 : (i 1).val < 1 := (i 1).isLt
  let t : Fin cfg5.N := ⟨(i 0).val / 5000, by show (i 0).val / 5000 < 50; omega⟩
  obtain ⟨-, -, -, -, -, -, -, -, e8, e9⟩ := block_of_point t
  have ht : t.val = (i 0).val / 5000 := rfl
  refine ⟨t, flush5_4 t, ?_⟩
  rw [in_block_iff]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 1 ≤ (i 1).val ∧ (i 1).val < win5_4.index t (1 : Fin 2) * 1 + 1; omega

/-- The result array after the launch is the layer on all rows of the arrays as the launch found them. -/
theorem whole_array (c : Dev nD) : (dat5 V c).arrAt 4 cfg5.N
    = comb 250000 1 (V c main_v104) (V c main_v77) (V c main_v105) (V c main_v106) :=
  (dat5 V c).arrAt_eq_of_cover 4 _ (fun t _ => written_block V c t) rows_covered

end Cert.KernelIdeal.Blocks5

end
-- ==== Proof.Chain.lean ====
/-
  The idealized kernel's result, followed through the program.

  Between the launch memory and the result the program's buffers pass ten boundaries: after the opening stretch of
  host operations (the two edge lists, the degrees, the per-node factor and its square), after each of the six
  launches, and after each of the three stretches that gather, scale and scatter-add the messages of a layer.  At
  every boundary each buffer that is read later holds the value the reference computes at the matching place:
  the stretches of host operations are the reference's own operations applied to equal operands; a product launch
  leaves the whole product (its blocks cover the rows, and an entry of the product depends on its row only); a
  combining launch leaves the whole layer (an entry depends on the same entry of the messages and the product, the
  factor of its row and the bias of its column), the factor arriving as a vector cast to a column and the bias as a
  vector cast to a row where the reference broadcasts them.  The last boundary's contents at the result buffer are
  therefore the reference's last stage at the same arguments.
-/
import proofs.«144625_j11390253269721_1_alg».proof.Proof.Carry
import proofs.«144625_j11390253269721_1_alg».proof.Proof.RefLayers
import proofs.«144625_j11390253269721_1_alg».proof.Proof.Blocks0
import proofs.«144625_j11390253269721_1_alg».proof.Proof.Blocks1
import proofs.«144625_j11390253269721_1_alg».proof.Proof.Blocks2
import proofs.«144625_j11390253269721_1_alg».proof.Proof.Blocks3
import proofs.«144625_j11390253269721_1_alg».proof.Proof.Blocks4
import proofs.«144625_j11390253269721_1_alg».proof.Proof.Blocks5
import Idealize.ShloMosaic.Lib.StableHlo.Run

set_option maxRecDepth 16384

noncomputable section

namespace Cert.KernelIdeal.Chain

open Cert.KernelIdeal Cert.KernelIdeal.Gen Cert.KernelIdeal.Carry Cert.Gcn
open Cert.ReferenceIdeal.Read Cert.ReferenceIdeal.Layers
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

theorem congr2 {α β γ : Type} (f : α → β → γ) {a a' : α} {b b' : β} (ha : a = a') (hb : b = b') : f a b = f a' b' := by
  subst ha hb; rfl
theorem congr4 {α β γ δ ε : Type} (f : α → β → γ → δ → ε) {a a' : α} {b b' : β} {c c' : γ} {d d' : δ}
    (ha : a = a') (hb : b = b') (hc : c = c') (hd : d = d') : f a b c d = f a' b' c' d' := by
  subst ha hb hc hd; rfl

/-! ## After the opening stretch: the graph's own quantities -/

/-- The source list. -/
theorem w1_src : W1 m ρ c (Proc.devRef .tc main_v1) = val_main_v1 (F := Ideal) (m ((c : Thread nD τ).loc main_arg1)) := by
  show after hostOps0 (W0 m ρ c) (Proc.devRef .tc main_v1) = _
  after_results
  rfl
/-- The target list. -/
theorem w1_dst : W1 m ρ c (Proc.devRef .tc main_v3) = val_main_v3 (F := Ideal) (m ((c : Thread nD τ).loc main_arg1)) := by
  show after hostOps0 (W0 m ρ c) (Proc.devRef .tc main_v3) = _
  after_results
  rfl
/-- The inverse square roots of the degrees. -/
theorem w1_inv : W1 m ρ c (Proc.devRef .tc main_v11) = val_main_v12 (F := Ideal) (m ((c : Thread nD τ).loc main_arg1)) := by
  show after hostOps0 (W0 m ρ c) (Proc.devRef .tc main_v11) = _
  after_results
  rfl
/-- Their squares: the per-node factor. -/
theorem w1_fac : W1 m ρ c (Proc.devRef .tc main_v12) = val_main_v41 (F := Ideal) (m ((c : Thread nD τ).loc main_arg1)) := by
  show after hostOps0 (W0 m ρ c) (Proc.devRef .tc main_v12) = _
  after_results
  rfl

/-! ## The arguments where they are read -/

theorem w1_x : W1 m ρ c (Proc.devRef .tc main_arg0) = (m ((c : Thread nD τ).loc main_arg0)) := (k1 m ρ c main_arg0 (by decide))
theorem w1_wa : W1 m ρ c (Proc.devRef .tc main_arg2) = (m ((c : Thread nD τ).loc main_arg2)) := (k1 m ρ c main_arg2 (by decide))
theorem w2_ba : W2 m ρ c (Proc.devRef .tc main_arg3) = (m ((c : Thread nD τ).loc main_arg3)) := (k2 m ρ c main_arg3 (by decide)).trans ((k1 m ρ c main_arg3 (by decide)))
theorem w4_wb : W4 m ρ c (Proc.devRef .tc main_arg4) = (m ((c : Thread nD τ).loc main_arg4)) := (k4 m ρ c main_arg4 (by decide)).trans ((k3 m ρ c main_arg4 (by decide)).trans ((k2 m ρ c main_arg4 (by decide)).trans ((k1 m ρ c main_arg4 (by decide)))))
theorem w5_bb : W5 m ρ c (Proc.devRef .tc main_arg5) = (m ((c : Thread nD τ).loc main_arg5)) := (k5 m ρ c main_arg5 (by decide)).trans ((k4 m ρ c main_arg5 (by decide)).trans ((k3 m ρ c main_arg5 (by decide)).trans ((k2 m ρ c main_arg5 (by decide)).trans ((k1 m ρ c main_arg5 (by decide))))))
theorem w7_wc : W7 m ρ c (Proc.devRef .tc main_arg6) = (m ((c : Thread nD τ).loc main_arg6)) := (k7 m ρ c main_arg6 (by decide)).trans ((k6 m ρ c main_arg6 (by decide)).trans ((k5 m ρ c main_arg6 (by decide)).trans ((k4 m ρ c main_arg6 (by decide)).trans ((k3 m ρ c main_arg6 (by decide)).trans ((k2 m ρ c main_arg6 (by decide)).trans ((k1 m ρ c main_arg6 (by decide))))))))
theorem w8_bc : W8 m ρ c (Proc.devRef .tc main_arg7) = (m ((c : Thread nD τ).loc main_arg7)) := (k8 m ρ c main_arg7 (by decide)).trans ((k7 m ρ c main_arg7 (by decide)).trans ((k6 m ρ c main_arg7 (by decide)).trans ((k5 m ρ c main_arg7 (by decide)).trans ((k4 m ρ c main_arg7 (by decide)).trans ((k3 m ρ c main_arg7 (by decide)).trans ((k2 m ρ c main_arg7 (by decide)).trans ((k1 m ρ c main_arg7 (by decide)))))))))

/-! ## The graph's quantities where the three layers read them -/

theorem w2_src : W2 m ρ c (Proc.devRef .tc main_v1) = val_main_v1 (F := Ideal) (m ((c : Thread nD τ).loc main_arg1)) :=
  ((k2 m ρ c main_v1 (by decide))).trans (w1_src m ρ c)
theorem w2_dst : W2 m ρ c (Proc.devRef .tc main_v3) = val_main_v3 (F := Ideal) (m ((c : Thread nD τ).loc main_arg1)) :=
  ((k2 m ρ c main_v3 (by decide))).trans (w1_dst m ρ c)
theorem w2_inv : W2 m ρ c (Proc.devRef .tc main_v11) = val_main_v12 (F := Ideal) (m ((c : Thread nD τ).loc main_arg1)) :=
  ((k2 m ρ c main_v11 (by decide))).trans (w1_inv m ρ c)
theorem w2_fac : W2 m ρ c (Proc.devRef .tc main_v12) = val_main_v41 (F := Ideal) (m ((c : Thread nD τ).loc main_arg1)) :=
  ((k2 m ρ c main_v12 (by decide))).trans (w1_fac m ρ c)
theorem w5_src : W5 m ρ c (Proc.devRef .tc main_v1) = val_main_v1 (F := Ideal) (m ((c : Thread nD τ).loc main_arg1)) :=
  ((k5 m ρ c main_v1 (by decide)).trans ((k4 m ρ c main_v1 (by decide)).trans ((k3 m ρ c main_v1 (by decide)).trans ((k2 m ρ c main_v1 (by decide)))))).trans (w1_src m ρ c)
theorem w5_dst : W5 m ρ c (Proc.devRef .tc main_v3) = val_main_v3 (F := Ideal) (m ((c : Thread nD τ).loc main_arg1)) :=
  ((k5 m ρ c main_v3 (by decide)).trans ((k4 m ρ c main_v3 (by decide)).trans ((k3 m ρ c main_v3 (by decide)).trans ((k2 m ρ c main_v3 (by decide)))))).trans (w1_dst m ρ c)
theorem w5_inv : W5 m ρ c (Proc.devRef .tc main_v11) = val_main_v12 (F := Ideal) (m ((c : Thread nD τ).loc main_arg1)) :=
  ((k5 m ρ c main_v11 (by decide)).trans ((k4 m ρ c main_v11 (by decide)).trans ((k3 m ρ c main_v11 (by decide)).trans ((k2 m ρ c main_v11 (by decide)))))).trans (w1_inv m ρ c)
theorem w5_fac : W5 m ρ c (Proc.devRef .tc main_v12) = val_main_v41 (F := Ideal) (m ((c : Thread nD τ).loc main_arg1)) :=
  ((k5 m ρ c main_v12 (by decide)).trans ((k4 m ρ c main_v12 (by decide)).trans ((k3 m ρ c main_v12 (by decide)).trans ((k2 m ρ c main_v12 (by decide)))))).trans (w1_fac m ρ c)
theorem w8_src : W8 m ρ c (Proc.devRef .tc main_v1) = val_main_v1 (F := Ideal) (m ((c : Thread nD τ).loc main_arg1)) :=
  ((k8 m ρ c main_v1 (by decide)).trans ((k7 m ρ c main_v1 (by decide)).trans ((k6 m ρ c main_v1 (by decide)).trans ((k5 m ρ c main_v1 (by decide)).trans ((k4 m ρ c main_v1 (by decide)).trans ((k3 m ρ c main_v1 (by decide)).trans ((k2 m ρ c main_v1 (by decide))))))))).trans (w1_src m ρ c)
theorem w8_dst : W8 m ρ c (Proc.devRef .tc main_v3) = val_main_v3 (F := Ideal) (m ((c : Thread nD τ).loc main_arg1)) :=
  ((k8 m ρ c main_v3 (by decide)).trans ((k7 m ρ c main_v3 (by decide)).trans ((k6 m ρ c main_v3 (by decide)).trans ((k5 m ρ c main_v3 (by decide)).trans ((k4 m ρ c main_v3 (by decide)).trans ((k3 m ρ c main_v3 (by decide)).trans ((k2 m ρ c main_v3 (by decide))))))))).trans (w1_dst m ρ c)
theorem w8_inv : W8 m ρ c (Proc.devRef .tc main_v11) = val_main_v12 (F := Ideal) (m ((c : Thread nD τ).loc main_arg1)) :=
  ((k8 m ρ c main_v11 (by decide)).trans ((k7 m ρ c main_v11 (by decide)).trans ((k6 m ρ c main_v11 (by decide)).trans ((k5 m ρ c main_v11 (by decide)).trans ((k4 m ρ c main_v11 (by decide)).trans ((k3 m ρ c main_v11 (by decide)).trans ((k2 m ρ c main_v11 (by decide))))))))).trans (w1_inv m ρ c)
theorem w8_fac : W8 m ρ c (Proc.devRef .tc main_v12) = val_main_v41 (F := Ideal) (m ((c : Thread nD τ).loc main_arg1)) :=
  ((k8 m ρ c main_v12 (by decide)).trans ((k7 m ρ c main_v12 (by decide)).trans ((k6 m ρ c main_v12 (by decide)).trans ((k5 m ρ c main_v12 (by decide)).trans ((k4 m ρ c main_v12 (by decide)).trans ((k3 m ρ c main_v12 (by decide)).trans ((k2 m ρ c main_v12 (by decide))))))))).trans (w1_fac m ρ c)

/-! ## First layer -/

/-- The first launch leaves the product of the features with the first weights. -/
theorem w2_xw : W2 m ρ c (Proc.devRef .tc main_v13) = val_main_v4 (F := Ideal) (m ((c : Thread nD τ).loc main_arg0)) (m ((c : Thread nD τ).loc main_arg2)) := by
  rw [prod1]
  exact (W2_arr m ρ c 2).trans ((Blocks0.whole_array (V1 m ρ) c).trans (congr2 (lin 250000 2 16) (w1_x m ρ c) (w1_wa m ρ c)))

/-- The stretch after it gathers, scales and scatter-adds the messages as the reference does. -/
theorem w3_agg : W3 m ρ c (Proc.devRef .tc main_v41) = val_main_v40 (F := Ideal) (m ((c : Thread nD τ).loc main_arg0)) (m ((c : Thread nD τ).loc main_arg1)) (m ((c : Thread nD τ).loc main_arg2)) := by
  show after hostOps1 (W2 m ρ c) (Proc.devRef .tc main_v41) = _
  after_results_simp
  rw [w2_src m ρ c, w2_dst m ρ c, w2_inv m ρ c, w2_xw m ρ c]
  rfl
theorem w3_dcol : W3 m ρ c (Proc.devRef .tc main_v42)
    = shapeCast S250000x1 (val_main_v41 (F := Ideal) (m ((c : Thread nD τ).loc main_arg1))) shapeCasts_S250000_S250000x1 := by
  show after hostOps1 (W2 m ρ c) (Proc.devRef .tc main_v42) = _
  after_results_simp
  rw [w2_fac m ρ c]
  rfl
theorem w3_brow : W3 m ρ c (Proc.devRef .tc main_v43) = shapeCast S1x16 (m ((c : Thread nD τ).loc main_arg3)) shapeCasts_S16_S1x16 := by
  show after hostOps1 (W2 m ρ c) (Proc.devRef .tc main_v43) = _
  after_results_simp
  rw [w2_ba m ρ c]
  rfl
theorem w3_xw : W3 m ρ c (Proc.devRef .tc main_v13) = val_main_v4 (F := Ideal) (m ((c : Thread nD τ).loc main_arg0)) (m ((c : Thread nD τ).loc main_arg2)) :=
  (k3 m ρ c main_v13 (by decide)).trans (w2_xw m ρ c)

/-- The second launch leaves the first layer's output. -/
theorem w4_h : W4 m ρ c (Proc.devRef .tc main_v44) = val_main_v49 (F := Ideal) (m ((c : Thread nD τ).loc main_arg0)) (m ((c : Thread nD τ).loc main_arg1)) (m ((c : Thread nD τ).loc main_arg2)) (m ((c : Thread nD τ).loc main_arg3)) := by
  rw [layer1 _ _ _ _ shapeCasts_S250000_S250000x1 shapeCasts_S16_S1x16]
  exact (W4_arr m ρ c 4).trans ((Blocks1.whole_array (V3 m ρ) c).trans
    (congr4 (combRelu 250000 16) (w3_agg m ρ c) (w3_xw m ρ c) (w3_dcol m ρ c) (w3_brow m ρ c)))

/-! ## Second layer -/

theorem w5_xw : W5 m ρ c (Proc.devRef .tc main_v45)
    = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [prod2]
  exact (W5_arr m ρ c 2).trans ((Blocks2.whole_array (V4 m ρ) c).trans (congr2 (lin 250000 16 16) (w4_h m ρ c) (w4_wb m ρ c)))

theorem w6_agg : W6 m ρ c (Proc.devRef .tc main_v73)
    = val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show after hostOps3 (W5 m ρ c) (Proc.devRef .tc main_v73) = _
  after_results_simp
  rw [w5_src m ρ c, w5_dst m ρ c, w5_inv m ρ c, w5_xw m ρ c]
  rfl
theorem w6_dcol : W6 m ρ c (Proc.devRef .tc main_v74)
    = shapeCast S250000x1 (val_main_v87 (F := Ideal) (m ((c : Thread nD τ).loc main_arg1))) shapeCasts_S250000_S250000x1 := by
  show after hostOps3 (W5 m ρ c) (Proc.devRef .tc main_v74) = _
  after_results_simp
  rw [w5_fac m ρ c, factor2]
  rfl
theorem w6_brow : W6 m ρ c (Proc.devRef .tc main_v75) = shapeCast S1x16 (m ((c : Thread nD τ).loc main_arg5)) shapeCasts_S16_S1x16 := by
  show after hostOps3 (W5 m ρ c) (Proc.devRef .tc main_v75) = _
  after_results_simp
  rw [w5_bb m ρ c]
  rfl
theorem w6_xw : W6 m ρ c (Proc.devRef .tc main_v45)
    = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (k6 m ρ c main_v45 (by decide)).trans (w5_xw m ρ c)

theorem w7_h : W7 m ρ c (Proc.devRef .tc main_v76)
    = val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [layer2 _ _ _ _ _ _ shapeCasts_S250000_S250000x1 shapeCasts_S16_S1x16]
  exact (W7_arr m ρ c 4).trans ((Blocks3.whole_array (V6 m ρ) c).trans
    (congr4 (combRelu 250000 16) (w6_agg m ρ c) (w6_xw m ρ c) (w6_dcol m ρ c) (w6_brow m ρ c)))

/-! ## Last layer -/

theorem w8_xw : W8 m ρ c (Proc.devRef .tc main_v77)
    = val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [prod3]
  exact (W8_arr m ρ c 2).trans ((Blocks4.whole_array (V7 m ρ) c).trans (congr2 (lin 250000 16 1) (w7_h m ρ c) (w7_wc m ρ c)))

theorem w9_agg : W9 m ρ c (Proc.devRef .tc main_v104)
    = val_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show after hostOps5 (W8 m ρ c) (Proc.devRef .tc main_v104) = _
  after_results_simp
  rw [w8_src m ρ c, w8_dst m ρ c, w8_inv m ρ c, w8_xw m ρ c]
  rfl
theorem w9_dcol : W9 m ρ c (Proc.devRef .tc main_v105)
    = shapeCast S250000x1 (val_main_v132 (F := Ideal) (m ((c : Thread nD τ).loc main_arg1))) shapeCasts_S250000_S250000x1 := by
  show after hostOps5 (W8 m ρ c) (Proc.devRef .tc main_v105) = _
  after_results_simp
  rw [w8_fac m ρ c, factor3]
  rfl
theorem w9_brow : W9 m ρ c (Proc.devRef .tc main_v106) = shapeCast S1x1 (m ((c : Thread nD τ).loc main_arg7)) shapeCasts_S1_S1x1 := by
  show after hostOps5 (W8 m ρ c) (Proc.devRef .tc main_v106) = _
  after_results_simp
  rw [w8_bc m ρ c]
  rfl
theorem w9_xw : W9 m ρ c (Proc.devRef .tc main_v77)
    = val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (k9 m ρ c main_v77 (by decide)).trans (w8_xw m ρ c)

/-- The last boundary's contents at the result buffer are the reference's last stage at the same arguments. -/
theorem result : W10 m ρ c (Proc.devRef .tc main_v107)
    = val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [layer3 _ _ _ _ _ _ _ _ shapeCasts_S250000_S250000x1 shapeCasts_S1_S1x1]
  exact (W10_arr m ρ c 4).trans ((Blocks5.whole_array (V9 m ρ) c).trans
    (congr4 (comb 250000 1) (w9_agg m ρ c) (w9_xw m ρ c) (w9_dcol m ρ c) (w9_brow m ρ c)))

end Cert.KernelIdeal.Chain

end
-- ==== Proof.Claims.lean ====
/-
  The claims, assembled.

  The word-level kernel and its idealization run to the end with their arguments unchanged (their generated frames);
  so does the reference (its generated run).  Nothing was rewritten on the way from the kernel to its idealization,
  so there is nothing to preserve.  At the ideal values the idealized kernel's result buffer ends at the last
  boundary's contents, which are the reference's last stage of the same arguments; the reference's run ends at that
  stage of its own arguments, which agree with the kernel's.
-/
import proofs.«144625_j11390253269721_1_alg».proof.Defs
import proofs.«144625_j11390253269721_1_alg».proof.Proof.Gen.Kernel.Frame
import proofs.«144625_j11390253269721_1_alg».proof.Proof.Gen.KernelIdeal.Frame
import proofs.«144625_j11390253269721_1_alg».proof.Proof.Gen.ReferenceIdeal.Run
import proofs.«144625_j11390253269721_1_alg».proof.Proof.Gen.ReferenceIdeal.Read
import proofs.«144625_j11390253269721_1_alg».proof.Proof.Gen.Pre_finite_inputs
import proofs.«144625_j11390253269721_1_alg».proof.Proof.KernelRun
import proofs.«144625_j11390253269721_1_alg».proof.Proof.Chain

noncomputable section

open Idealize.ShloMosaic Idealize.ShloMosaic.TcCoe Idealize.SL.Sem

namespace Cert.Proof.Claims

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the reference's last stage of the kernel's arguments in their result buffers. -/
theorem algebraic : Cert.algebraic_KernelIdeal_ReferenceIdeal := by
  intro m ρ m' ρ' _ hagree
  refine ⟨fun c => Cert.ReferenceIdeal.Read.val_main_v138 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.result m ρ c), (h c).2⟩)
      (Cert.KernelIdeal.Named.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v138_eq, h0, h1, h2, h3, h4, h5, h6, h7]

end Cert.Proof.Claims

end
-- ==== Proof.lean ====
/-
  The certificate of a three-layer graph convolution network: a kernel that computes each layer's dense product
  and its combination (messages + factor * product + bias, with a maximum with zero on the hidden layers) in
  launches over blocks of 5000 rows, against a reference that computes the same layers on whole matrices.

  At the ideal values the two programs are the same composition of functions.  The graph's quantities (the edge
  lists, the degrees, their inverse square roots, the per-node factor) and each layer's gather, scaling and
  scatter-add of messages are the same host operations on both sides; a product launch leaves the whole product
  because an entry of a product depends on its row only, and a combining launch leaves the whole layer because an
  entry depends on the same entry of its operands, the factor of its row and the bias of its column.  No
  rearrangement of sums is involved, so the finiteness of the inputs is never used.  The modules: LibGcnLayer (the
  layer functions entry by entry), Rows (the rows of a block), Blocks0 … Blocks5 (each launch's blocks assembled into its result array),
  Carry (what each stretch of host operations and each launch leaves alone), RefLayers (the reference read layer by
  layer), Chain (the kernel's buffers followed through the program), KernelRun (the kernel's run with its result
  named), Claims (the five claims).
-/
import proofs.«144625_j11390253269721_1_alg».proof.Defs
import proofs.«144625_j11390253269721_1_alg».proof.Proof.Gen.Kernel
import proofs.«144625_j11390253269721_1_alg».proof.Proof.Gen.KernelIdeal
import proofs.«144625_j11390253269721_1_alg».proof.Proof.Gen.ReferenceIdeal
import proofs.«144625_j11390253269721_1_alg».proof.Proof.Gen.Pre_finite_inputs
import proofs.«144625_j11390253269721_1_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
